-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x34x128x128 : Shape := ⟨5, ![32, 4, 34, 128, 128]⟩
abbrev S32x128x128 : Shape := ⟨3, ![32, 128, 128]⟩
abbrev S32x30x17 : Shape := ⟨3, ![32, 30, 17]⟩
abbrev S32x1x30x17 : Shape := ⟨4, ![32, 1, 30, 17]⟩
abbrev S32x17x128x128 : Shape := ⟨4, ![32, 17, 128, 128]⟩
abbrev S_ : Shape := ⟨0, ![]⟩

class Facts : Prop where
  bcast_S_S32x4x34x128x128 : S_.BroadcastsInDim S32x4x34x128x128 (![] : Fin 0 → Fin S32x4x34x128x128.rank)
  reducesTo_S32x4x34x128x128_S_d0_1_2_3_4 : S32x4x34x128x128.ReducesTo [0, 1, 2, 3, 4] S_
  h_S_ : 0 < S_.numel
  bcast_S_S32x128x128 : S_.BroadcastsInDim S32x128x128 (![] : Fin 0 → Fin S32x128x128.rank)
  reducesTo_S32x128x128_S_d0_1_2 : S32x128x128.ReducesTo [0, 1, 2] S_
  bcast_S_S32x30x17 : S_.BroadcastsInDim S32x30x17 (![] : Fin 0 → Fin S32x30x17.rank)
  reducesTo_S32x30x17_S_d0_1_2 : S32x30x17.ReducesTo [0, 1, 2] S_
  bcast_S_S32x1x30x17 : S_.BroadcastsInDim S32x1x30x17 (![] : Fin 0 → Fin S32x1x30x17.rank)
  reducesTo_S32x1x30x17_S_d0_1_2_3 : S32x1x30x17.ReducesTo [0, 1, 2, 3] S_
  bcast_S_S32x17x128x128 : S_.BroadcastsInDim S32x17x128x128 (![] : Fin 0 → Fin S32x17x128x128.rank)
  reducesTo_S32x17x128x128_S_d0_1_2_3 : S32x17x128x128.ReducesTo [0, 1, 2, 3] S_

variable [Facts]

def fn_part1 {F : FTy → Type} [FloatOps F] (main_arg5 : FVec F S32x17x128x128 .f32) (main_v13 : IVec S_ 1) (main_v16 : IVec S32x1x30x17 1) : IVec S_ 1 :=
  let main_c_5 : IVec S_ 1 := constantI S_ 1 1#1
  let main_v17 : IVec S_ 1 := (fun x v => Host.reduce IntOp.andi x v reducesTo_S32x1x30x17_S_d0_1_2_3 h_S_) main_v16 main_c_5
  let main_v18 : IVec S_ 1 := andi main_v13 main_v17
  let main_v19 : FVec F S32x17x128x128 .f32 := Host.absf main_arg5
  let main_cst_6 : FVec F S_ .f32 := constant S_ .f32 0x7F800000#32
  let main_v20 : FVec F S32x17x128x128 .f32 := broadcastInDim S32x17x128x128 ![] bcast_S_S32x17x128x128 main_cst_6
  let main_v21 : IVec S32x17x128x128 1 := cmpf .olt main_v19 main_v20
  let main_c_7 : IVec S_ 1 := constantI S_ 1 1#1
  let main_v22 : IVec S_ 1 := (fun x v => Host.reduce IntOp.andi x v reducesTo_S32x17x128x128_S_d0_1_2_3 h_S_) main_v21 main_c_7
  let main_v23 : IVec S_ 1 := andi main_v18 main_v22
  main_v23

def fn {F : FTy → Type} [FloatOps F] (main_arg0 : FVec F S32x4x34x128x128 .f32) (main_arg1 : FVec F S32x128x128 .f32) (main_arg2 : IVec S32x30x17 32) (main_arg3 : FVec F S32x30x17 .f32) (main_arg4 : FVec F S32x1x30x17 .f32) (main_arg5 : FVec F S32x17x128x128 .f32) : IVec S_ 1 :=
  let main_v0 : FVec F S32x4x34x128x128 .f32 := Host.absf main_arg0
  let main_cst : FVec F S_ .f32 := constant S_ .f32 0x7F800000#32
  let main_v1 : FVec F S32x4x34x128x128 .f32 := broadcastInDim S32x4x34x128x128 ![] bcast_S_S32x4x34x128x128 main_cst
  let main_v2 : IVec S32x4x34x128x128 1 := cmpf .olt main_v0 main_v1
  let main_c : IVec S_ 1 := constantI S_ 1 1#1
  let main_v3 : IVec S_ 1 := (fun x v => Host.reduce IntOp.andi x v reducesTo_S32x4x34x128x128_S_d0_1_2_3_4 h_S_) main_v2 main_c
  let main_v4 : FVec F S32x128x128 .f32 := Host.absf main_arg1
  let main_cst_0 : FVec F S_ .f32 := constant S_ .f32 0x7F800000#32
  let main_v5 : FVec F S32x128x128 .f32 := broadcastInDim S32x128x128 ![] bcast_S_S32x128x128 main_cst_0
  let main_v6 : IVec S32x128x128 1 := cmpf .olt main_v4 main_v5
  let main_c_1 : IVec S_ 1 := constantI S_ 1 1#1
  let main_v7 : IVec S_ 1 := (fun x v => Host.reduce IntOp.andi x v reducesTo_S32x128x128_S_d0_1_2 h_S_) main_v6 main_c_1
  let main_v8 : IVec S_ 1 := andi main_v3 main_v7
  let main_v9 : FVec F S32x30x17 .f32 := Host.absf main_arg3
  let main_cst_2 : FVec F S_ .f32 := constant S_ .f32 0x7F800000#32
  let main_v10 : FVec F S32x30x17 .f32 := broadcastInDim S32x30x17 ![] bcast_S_S32x30x17 main_cst_2
  let main_v11 : IVec S32x30x17 1 := cmpf .olt main_v9 main_v10
  let main_c_3 : IVec S_ 1 := constantI S_ 1 1#1
  let main_v12 : IVec S_ 1 := (fun x v => Host.reduce IntOp.andi x v reducesTo_S32x30x17_S_d0_1_2 h_S_) main_v11 main_c_3
  let main_v13 : IVec S_ 1 := andi main_v8 main_v12
  let main_v14 : FVec F S32x1x30x17 .f32 := Host.absf main_arg4
  let main_cst_4 : FVec F S_ .f32 := constant S_ .f32 0x7F800000#32
  let main_v15 : FVec F S32x1x30x17 .f32 := broadcastInDim S32x1x30x17 ![] bcast_S_S32x1x30x17 main_cst_4
  let main_v16 : IVec S32x1x30x17 1 := cmpf .olt main_v14 main_v15
  fn_part1 (F := F) main_arg5 main_v13 main_v16
-- ==== Kernel.lean ====
abbrev S32x4x34x128x128 : Shape := ⟨5, ![32, 4, 34, 128, 128]⟩
abbrev S32x128x128 : Shape := ⟨3, ![32, 128, 128]⟩
abbrev S32x30x17 : Shape := ⟨3, ![32, 30, 17]⟩
abbrev S32x1x30x17 : Shape := ⟨4, ![32, 1, 30, 17]⟩
abbrev S32x17x128x128 : Shape := ⟨4, ![32, 17, 128, 128]⟩
abbrev S1x1 : Shape := ⟨2, ![1, 1]⟩
abbrev S1x4x17x128x128 : Shape := ⟨5, ![1, 4, 17, 128, 128]⟩
abbrev S1x17x128x128 : Shape := ⟨4, ![1, 17, 128, 128]⟩
abbrev S1x128x128 : Shape := ⟨3, ![1, 128, 128]⟩
abbrev S4x17x128x128 : Shape := ⟨4, ![4, 17, 128, 128]⟩
abbrev S17x128x128 : Shape := ⟨3, ![17, 128, 128]⟩
abbrev S128x128 : Shape := ⟨2, ![128, 128]⟩
abbrev S1x1x128x128 : Shape := ⟨4, ![1, 1, 128, 128]⟩
abbrev S4x17x128 : Shape := ⟨3, ![4, 17, 128]⟩
abbrev S4x17 : Shape := ⟨2, ![4, 17]⟩
abbrev S4 : Shape := ⟨1, ![4]⟩
abbrev S4x1 : Shape := ⟨2, ![4, 1]⟩
abbrev S1 : Shape := ⟨1, ![1]⟩
abbrev S_ : Shape := ⟨0, ![]⟩
abbrev S32x4x17x128x128 : Shape := ⟨5, ![32, 4, 17, 128, 128]⟩
abbrev S32x4x1x278528 : Shape := ⟨4, ![32, 4, 1, 278528]⟩
abbrev S32x1x1x510 : Shape := ⟨4, ![32, 1, 1, 510]⟩
abbrev S32x4x1x510 : Shape := ⟨4, ![32, 4, 1, 510]⟩
abbrev S32x4x510x1 : Shape := ⟨4, ![32, 4, 510, 1]⟩
abbrev S1x1x1x1 : Shape := ⟨4, ![1, 1, 1, 1]⟩
abbrev S32x4x510 : Shape := ⟨3, ![32, 4, 510]⟩
abbrev S32x4x1x30x17 : Shape := ⟨5, ![32, 4, 1, 30, 17]⟩
abbrev S32x1x1x30x17 : Shape := ⟨5, ![32, 1, 1, 30, 17]⟩
abbrev S32x4x1 : Shape := ⟨3, ![32, 4, 1]⟩
abbrev S32x4 : Shape := ⟨2, ![32, 4]⟩

abbrev nBuf : Space → Nat
  | .hbm => 59
  | .vmem => 8
  | .smem => 0
  | _ => 0

abbrev bufTy : (tb : Table) → Fin (tcTables nBuf tb) → BufTy
  | .hbm, ⟨0, _⟩ => ⟨S32x4x34x128x128, .f32⟩
  | .hbm, ⟨1, _⟩ => ⟨S32x128x128, .f32⟩
  | .hbm, ⟨2, _⟩ => ⟨S32x30x17, .i32⟩
  | .hbm, ⟨3, _⟩ => ⟨S32x30x17, .f32⟩
  | .hbm, ⟨4, _⟩ => ⟨S32x1x30x17, .f32⟩
  | .hbm, ⟨5, _⟩ => ⟨S32x17x128x128, .f32⟩
  | .hbm, ⟨6, _⟩ => ⟨S1x1, .f32⟩
  | .hbm, ⟨7, _⟩ => ⟨S_, .f32⟩
  | .hbm, ⟨8, _⟩ => ⟨S32x4x17x128x128, .f32⟩
  | .hbm, ⟨9, _⟩ => ⟨S32x4x1x278528, .f32⟩
  | .hbm, ⟨10, _⟩ => ⟨S32x1x1x510, .i32⟩
  | .hbm, ⟨11, _⟩ => ⟨S32x4x1x510, .i32⟩
  | .hbm, ⟨12, _⟩ => ⟨S_, .i32⟩
  | .hbm, ⟨13, _⟩ => ⟨S32x4x1x510, .i32⟩
  | .hbm, ⟨14, _⟩ => ⟨S32x4x1x510, .i1⟩
  | .hbm, ⟨15, _⟩ => ⟨S_, .i32⟩
  | .hbm, ⟨16, _⟩ => ⟨S32x4x1x510, .i32⟩
  | .hbm, ⟨17, _⟩ => ⟨S32x4x1x510, .i32⟩
  | .hbm, ⟨18, _⟩ => ⟨S32x4x1x510, .i32⟩
  | .hbm, ⟨19, _⟩ => ⟨S32x4x510x1, .i32⟩
  | .hbm, ⟨20, _⟩ => ⟨S1, .i32⟩
  | .hbm, ⟨21, _⟩ => ⟨S_, .i32⟩
  | .hbm, ⟨22, _⟩ => ⟨S32x4x510x1, .i32⟩
  | .hbm, ⟨23, _⟩ => ⟨S32x4x510x1, .i1⟩
  | .hbm, ⟨24, _⟩ => ⟨S1x1x1x1, .i32⟩
  | .hbm, ⟨25, _⟩ => ⟨S32x4x510x1, .i32⟩
  | .hbm, ⟨26, _⟩ => ⟨S32x4x510x1, .i1⟩
  | .hbm, ⟨27, _⟩ => ⟨S32x4x510x1, .i1⟩
  | .hbm, ⟨28, _⟩ => ⟨S_, .i1⟩
  | .hbm, ⟨29, _⟩ => ⟨S32x4x510, .i1⟩
  | .hbm, ⟨30, _⟩ => ⟨S32x4x1x510, .f32⟩
  | .hbm, ⟨31, _⟩ => ⟨S32x4x1x510, .i1⟩
  | .hbm, ⟨32, _⟩ => ⟨S_, .f32⟩
  | .hbm, ⟨33, _⟩ => ⟨S32x4x1x510, .f32⟩
  | .hbm, ⟨34, _⟩ => ⟨S32x4x1x510, .f32⟩
  | .hbm, ⟨35, _⟩ => ⟨S32x4x1x30x17, .f32⟩
  | .hbm, ⟨36, _⟩ => ⟨S32x1x1x30x17, .f32⟩
  | .hbm, ⟨37, _⟩ => ⟨S32x4x1x30x17, .f32⟩
  | .hbm, ⟨38, _⟩ => ⟨S32x4x1x30x17, .f32⟩
  | .hbm, ⟨39, _⟩ => ⟨S32x4x1x30x17, .f32⟩
  | .hbm, ⟨40, _⟩ => ⟨S32x1x1x30x17, .f32⟩
  | .hbm, ⟨41, _⟩ => ⟨S32x4x1x30x17, .f32⟩
  | .hbm, ⟨42, _⟩ => ⟨S32x4x1x30x17, .f32⟩
  | .hbm, ⟨43, _⟩ => ⟨S_, .f32⟩
  | .hbm, ⟨44, _⟩ => ⟨S32x4x1, .f32⟩
  | .hbm, ⟨45, _⟩ => ⟨S_, .f32⟩
  | .hbm, ⟨46, _⟩ => ⟨S32x4, .f32⟩
  | .hbm, ⟨47, _⟩ => ⟨S_, .f32⟩
  | .hbm, ⟨48, _⟩ => ⟨S32x4, .f32⟩
  | .hbm, ⟨49, _⟩ => ⟨S32x4, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x4x17x128x128, .f32⟩
  | .local _ .vmem, ⟨1, _⟩ => ⟨S1x4x17x128x128, .f32⟩
  | .local _ .vmem, ⟨2, _⟩ => ⟨S1x17x128x128, .f32⟩
  | .local _ .vmem, ⟨3, _⟩ => ⟨S1x17x128x128, .f32⟩
  | .local _ .vmem, ⟨4, _⟩ => ⟨S1x128x128, .f32⟩
  | .local _ .vmem, ⟨5, _⟩ => ⟨S1x128x128, .f32⟩
  | .local _ .vmem, ⟨6, _⟩ => ⟨S1x1, .f32⟩
  | .local _ .vmem, ⟨7, _⟩ => ⟨S1x1, .f32⟩
  | _, _ => ⟨S32x4x34x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_cst_0 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩
abbrev main_v23 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v27 : BitVec 1 := Scalar.cmpi .eq arg0 c31_i32
  let v28 : BitVec 32 := Scalar.extui v27
  let c0_i32_19 : BitVec 32 := 0#32
  let v29 : BitVec 1 := Scalar.cmpi .ne v28 c0_i32_19
  v29

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x17x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x17x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4x17x128x128_S1x4x17x128x128_0_0_0_0_0 : ∀ a, (![0, 0, 0, 0, 0] : Fin 5 → Nat) a + S1x4x17x128x128.size a ≤ S1x4x17x128x128.size a
  h_S1x4x17x128x128 : 0 < S1x4x17x128x128.numel
  shapeCasts_S1x4x17x128x128_S4x17x128x128 : S1x4x17x128x128.ShapeCasts S4x17x128x128
  inb_S1x17x128x128_S1x17x128x128_0_0_0_0 : ∀ a, (![0, 0, 0, 0] : Fin 4 → Nat) a + S1x17x128x128.size a ≤ S1x17x128x128.size a
  h_S1x17x128x128 : 0 < S1x17x128x128.numel
  shapeCasts_S1x17x128x128_S17x128x128 : S1x17x128x128.ShapeCasts S17x128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S17x128x128_S1x17x128x128 : S17x128x128.ShapeCasts S1x17x128x128
  broadcasts_S1x17x128x128_S4x17x128x128 : S1x17x128x128.Broadcasts S4x17x128x128
  shapeCasts_S128x128_S1x1x128x128 : S128x128.ShapeCasts S1x1x128x128
  broadcasts_S1x1x128x128_S4x17x128x128 : S1x1x128x128.Broadcasts S4x17x128x128
  reduces_S4x17x128x128_S4x17x128 : S4x17x128x128.Reduces [3] S4x17x128
  reduces_S4x17x128_S4x17 : S4x17x128.Reduces [2] S4x17
  reduces_S4x17_S4 : S4x17.Reduces [1] S4
  shapeCasts_S4_S4x1 : S4.ShapeCasts S4x1
  reduces_S4x1_S1 : S4x1.Reduces [0] S1
  shapeCasts_S1_S1x1 : S1.ShapeCasts S1x1
  shapeCasts_S1x1_S_ : S1x1.ShapeCasts S_
  slices_S32x4x34x128x128_S32x4x17x128x128_0_0_17_0_0 : S32x4x34x128x128.Slices ![0, 0, 17, 0, 0] S32x4x17x128x128
  shapeCasts_S32x4x17x128x128_S32x4x1x278528 : S32x4x17x128x128.ShapeCasts S32x4x1x278528
  shapeCasts_S32x30x17_S32x1x1x510 : S32x30x17.ShapeCasts S32x1x1x510
  bcast_S32x1x1x510_S32x4x1x510_0_1_2_3 : S32x1x1x510.BroadcastsInDim S32x4x1x510 (![0, 1, 2, 3] : Fin 4 → Fin S32x4x1x510.rank)
  bcast_S_S32x4x1x510 : S_.BroadcastsInDim S32x4x1x510 (![] : Fin 0 → Fin S32x4x1x510.rank)
  shapeCasts_S32x4x1x510_S32x4x510x1 : S32x4x1x510.ShapeCasts S32x4x510x1
  bcast_S_S32x4x510x1 : S_.BroadcastsInDim S32x4x510x1 (![] : Fin 0 → Fin S32x4x510x1.rank)
  bcast_S1_S1x1x1x1_3 : S1.BroadcastsInDim S1x1x1x1 (![3] : Fin 1 → Fin S1x1x1x1.rank)
  bcast_S1x1x1x1_S32x4x510x1_0_1_2_3 : S1x1x1x1.BroadcastsInDim S32x4x510x1 (![0, 1, 2, 3] : Fin 4 → Fin S32x4x510x1.rank)
  reducesTo_S32x4x510x1_S32x4x510_d3 : S32x4x510x1.ReducesTo [3] S32x4x510
  h_S_ : 0 < S_.numel
  bcast_S32x4x510_S32x4x1x510_0_1_3 : S32x4x510.BroadcastsInDim S32x4x1x510 (![0, 1, 3] : Fin 3 → Fin S32x4x1x510.rank)
  shapeCasts_S32x4x1x510_S32x4x1x30x17 : S32x4x1x510.ShapeCasts S32x4x1x30x17
  bcast_S32x1x30x17_S32x1x1x30x17_0_2_3_4 : S32x1x30x17.BroadcastsInDim S32x1x1x30x17 (![0, 2, 3, 4] : Fin 4 → Fin S32x1x1x30x17.rank)
  bcast_S32x1x1x30x17_S32x4x1x30x17_0_1_2_3_4 : S32x1x1x30x17.BroadcastsInDim S32x4x1x30x17 (![0, 1, 2, 3, 4] : Fin 5 → Fin S32x4x1x30x17.rank)
  bcast_S32x30x17_S32x1x1x30x17_0_3_4 : S32x30x17.BroadcastsInDim S32x1x1x30x17 (![0, 3, 4] : Fin 3 → Fin S32x1x1x30x17.rank)
  reducesTo_S32x4x1x30x17_S32x4x1_d3_4 : S32x4x1x30x17.ReducesTo [3, 4] S32x4x1
  reducesTo_S32x4x1_S32x4_d2 : S32x4x1.ReducesTo [2] S32x4
  bcast_S_S32x4 : S_.BroadcastsInDim S32x4 (![] : Fin 0 → Fin S32x4.rank)
  reducesTo_S32x4_S_d0_1 : S32x4.ReducesTo [0, 1] S_
  gather_S32x4x1x278528_S32x4x510x1_S32x4x1x510_2_3_01_01_3_3_1111_wf : GatherDims.WF S32x4x1x278528 S32x4x510x1 S32x4x1x510 [2] [3] [0, 1] [3] [0, 1] 3 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x17x128x128.size a ≤ S32x4x34x128x128.size a
  hwx0_0 : ∀ i : grid0.Coords, EltTy.bits .f32 = 32 ∨ (Rect.block (s := S32x4x34x128x128) S1x4x17x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x17x128x128.size a ≤ S32x17x128x128.size a
  hwx0_1 : ∀ i : grid0.Coords, EltTy.bits .f32 = 32 ∨ (Rect.block (s := S32x17x128x128) S1x17x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S32x128x128.size a
  hwx0_2 : ∀ i : grid0.Coords, EltTy.bits .f32 = 32 ∨ (Rect.block (s := S32x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S32x4x1x278528_S32x4x510x1_S32x4x1x510_2_3_01_01_3_3_1111 : GatherDims S32x4x1x278528 S32x4x510x1 S32x4x1x510 where
  offsetDims := [2]
  collapsedSliceDims := [3]
  operandBatchingDims := [0, 1]
  startIndicesBatchingDims := [0, 1]
  startIndexMap := [3]
  indexVectorDim := 3
  sliceSizes := ![1, 1, 1, 1]
  wf := gather_S32x4x1x278528_S32x4x510x1_S32x4x1x510_2_3_01_01_3_3_1111_wf

abbrev win0_0 : Pipeline.Window sig grid0 :=
  Pipeline.Window.ofSpec (Memref.whole main_arg0) S1x4x17x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x17x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x4x34x128x128 : Shape := ⟨5, ![32, 4, 34, 128, 128]⟩
abbrev S32x128x128 : Shape := ⟨3, ![32, 128, 128]⟩
abbrev S32x30x17 : Shape := ⟨3, ![32, 30, 17]⟩
abbrev S32x1x30x17 : Shape := ⟨4, ![32, 1, 30, 17]⟩
abbrev S32x17x128x128 : Shape := ⟨4, ![32, 17, 128, 128]⟩
abbrev S32x4x17x128x128 : Shape := ⟨5, ![32, 4, 17, 128, 128]⟩
abbrev S32x4x1x278528 : Shape := ⟨4, ![32, 4, 1, 278528]⟩
abbrev S32x1x1x510 : Shape := ⟨4, ![32, 1, 1, 510]⟩
abbrev S32x4x1x510 : Shape := ⟨4, ![32, 4, 1, 510]⟩
abbrev S_ : Shape := ⟨0, ![]⟩
abbrev S32x4x510x1 : Shape := ⟨4, ![32, 4, 510, 1]⟩
abbrev S1 : Shape := ⟨1, ![1]⟩
abbrev S1x1x1x1 : Shape := ⟨4, ![1, 1, 1, 1]⟩
abbrev S32x4x510 : Shape := ⟨3, ![32, 4, 510]⟩
abbrev S32x4x1x30x17 : Shape := ⟨5, ![32, 4, 1, 30, 17]⟩
abbrev S32x1x1x30x17 : Shape := ⟨5, ![32, 1, 1, 30, 17]⟩
abbrev S32x4x1 : Shape := ⟨3, ![32, 4, 1]⟩
abbrev S32x4 : Shape := ⟨2, ![32, 4]⟩
abbrev S32x1x17x128x128 : Shape := ⟨5, ![32, 1, 17, 128, 128]⟩
abbrev S32x1x1x128x128 : Shape := ⟨5, ![32, 1, 1, 128, 128]⟩

abbrev nBuf : Space → Nat
  | .hbm => 74
  | .vmem => 0
  | .smem => 0
  | _ => 0

abbrev bufTy : (tb : Table) → Fin (tcTables nBuf tb) → BufTy
  | .hbm, ⟨0, _⟩ => ⟨S32x4x34x128x128, .f32⟩
  | .hbm, ⟨1, _⟩ => ⟨S32x128x128, .f32⟩
  | .hbm, ⟨2, _⟩ => ⟨S32x30x17, .i32⟩
  | .hbm, ⟨3, _⟩ => ⟨S32x30x17, .f32⟩
  | .hbm, ⟨4, _⟩ => ⟨S32x1x30x17, .f32⟩
  | .hbm, ⟨5, _⟩ => ⟨S32x17x128x128, .f32⟩
  | .hbm, ⟨6, _⟩ => ⟨S32x4x17x128x128, .f32⟩
  | .hbm, ⟨7, _⟩ => ⟨S32x4x1x278528, .f32⟩
  | .hbm, ⟨8, _⟩ => ⟨S32x1x1x510, .i32⟩
  | .hbm, ⟨9, _⟩ => ⟨S32x4x1x510, .i32⟩
  | .hbm, ⟨10, _⟩ => ⟨S_, .i32⟩
  | .hbm, ⟨11, _⟩ => ⟨S32x4x1x510, .i32⟩
  | .hbm, ⟨12, _⟩ => ⟨S32x4x1x510, .i1⟩
  | .hbm, ⟨13, _⟩ => ⟨S_, .i32⟩
  | .hbm, ⟨14, _⟩ => ⟨S32x4x1x510, .i32⟩
  | .hbm, ⟨15, _⟩ => ⟨S32x4x1x510, .i32⟩
  | .hbm, ⟨16, _⟩ => ⟨S32x4x1x510, .i32⟩
  | .hbm, ⟨17, _⟩ => ⟨S32x4x510x1, .i32⟩
  | .hbm, ⟨18, _⟩ => ⟨S1, .i32⟩
  | .hbm, ⟨19, _⟩ => ⟨S_, .i32⟩
  | .hbm, ⟨20, _⟩ => ⟨S32x4x510x1, .i32⟩
  | .hbm, ⟨21, _⟩ => ⟨S32x4x510x1, .i1⟩
  | .hbm, ⟨22, _⟩ => ⟨S1x1x1x1, .i32⟩
  | .hbm, ⟨23, _⟩ => ⟨S32x4x510x1, .i32⟩
  | .hbm, ⟨24, _⟩ => ⟨S32x4x510x1, .i1⟩
  | .hbm, ⟨25, _⟩ => ⟨S32x4x510x1, .i1⟩
  | .hbm, ⟨26, _⟩ => ⟨S_, .i1⟩
  | .hbm, ⟨27, _⟩ => ⟨S32x4x510, .i1⟩
  | .hbm, ⟨28, _⟩ => ⟨S32x4x1x510, .f32⟩
  | .hbm, ⟨29, _⟩ => ⟨S32x4x1x510, .i1⟩
  | .hbm, ⟨30, _⟩ => ⟨S_, .f32⟩
  | .hbm, ⟨31, _⟩ => ⟨S32x4x1x510, .f32⟩
  | .hbm, ⟨32, _⟩ => ⟨S32x4x1x510, .f32⟩
  | .hbm, ⟨33, _⟩ => ⟨S32x4x1x30x17, .f32⟩
  | .hbm, ⟨34, _⟩ => ⟨S32x1x1x30x17, .f32⟩
  | .hbm, ⟨35, _⟩ => ⟨S32x4x1x30x17, .f32⟩
  | .hbm, ⟨36, _⟩ => ⟨S32x4x1x30x17, .f32⟩
  | .hbm, ⟨37, _⟩ => ⟨S32x4x1x30x17, .f32⟩
  | .hbm, ⟨38, _⟩ => ⟨S32x1x1x30x17, .f32⟩
  | .hbm, ⟨39, _⟩ => ⟨S32x4x1x30x17, .f32⟩
  | .hbm, ⟨40, _⟩ => ⟨S32x4x1x30x17, .f32⟩
  | .hbm, ⟨41, _⟩ => ⟨S_, .f32⟩
  | .hbm, ⟨42, _⟩ => ⟨S32x4x1, .f32⟩
  | .hbm, ⟨43, _⟩ => ⟨S_, .f32⟩
  | .hbm, ⟨44, _⟩ => ⟨S32x4, .f32⟩
  | .hbm, ⟨45, _⟩ => ⟨S_, .f32⟩
  | .hbm, ⟨46, _⟩ => ⟨S32x4, .f32⟩
  | .hbm, ⟨47, _⟩ => ⟨S32x4, .f32⟩
  | .hbm, ⟨48, _⟩ => ⟨S32x4x17x128x128, .f32⟩
  | .hbm, ⟨49, _⟩ => ⟨S32x1x17x128x128, .f32⟩
  | .hbm, ⟨50, _⟩ => ⟨S32x4x17x128x128, .f32⟩
  | .hbm, ⟨51, _⟩ => ⟨S32x4x17x128x128, .f32⟩
  | .hbm, ⟨52, _⟩ => ⟨S32x4x17x128x128, .f32⟩
  | .hbm, ⟨53, _⟩ => ⟨S32x1x1x128x128, .f32⟩
  | .hbm, ⟨54, _⟩ => ⟨S32x4x17x128x128, .f32⟩
  | .hbm, ⟨55, _⟩ => ⟨S32x4x17x128x128, .f32⟩
  | .hbm, ⟨56, _⟩ => ⟨S_, .f32⟩
  | .hbm, ⟨57, _⟩ => ⟨S32x4, .f32⟩
  | .hbm, ⟨58, _⟩ => ⟨S_, .f32⟩
  | .hbm, ⟨59, _⟩ => ⟨S32x4, .f32⟩
  | .hbm, ⟨60, _⟩ => ⟨S32x4, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S32x4x34x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_cst_0 : Ref sig .tc := ⟨.hbm, 43, rfl⟩
abbrev main_v14 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_2 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_cst_8 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩
abbrev main_v34 : Ref sig .tc := ⟨.hbm, 73, rfl⟩

abbrev nD : Nat := 1
abbrev τ : Topo := Topo.v7x

variable {F : FTy → Type} [FloatOps F]

class Facts₀ : Prop where
  slices_S32x4x34x128x128_S32x4x17x128x128_0_0_17_0_0 : S32x4x34x128x128.Slices ![0, 0, 17, 0, 0] S32x4x17x128x128
  shapeCasts_S32x4x17x128x128_S32x4x1x278528 : S32x4x17x128x128.ShapeCasts S32x4x1x278528
  shapeCasts_S32x30x17_S32x1x1x510 : S32x30x17.ShapeCasts S32x1x1x510
  bcast_S32x1x1x510_S32x4x1x510_0_1_2_3 : S32x1x1x510.BroadcastsInDim S32x4x1x510 (![0, 1, 2, 3] : Fin 4 → Fin S32x4x1x510.rank)
  bcast_S_S32x4x1x510 : S_.BroadcastsInDim S32x4x1x510 (![] : Fin 0 → Fin S32x4x1x510.rank)
  shapeCasts_S32x4x1x510_S32x4x510x1 : S32x4x1x510.ShapeCasts S32x4x510x1
  bcast_S_S32x4x510x1 : S_.BroadcastsInDim S32x4x510x1 (![] : Fin 0 → Fin S32x4x510x1.rank)
  bcast_S1_S1x1x1x1_3 : S1.BroadcastsInDim S1x1x1x1 (![3] : Fin 1 → Fin S1x1x1x1.rank)
  bcast_S1x1x1x1_S32x4x510x1_0_1_2_3 : S1x1x1x1.BroadcastsInDim S32x4x510x1 (![0, 1, 2, 3] : Fin 4 → Fin S32x4x510x1.rank)
  reducesTo_S32x4x510x1_S32x4x510_d3 : S32x4x510x1.ReducesTo [3] S32x4x510
  h_S_ : 0 < S_.numel
  bcast_S32x4x510_S32x4x1x510_0_1_3 : S32x4x510.BroadcastsInDim S32x4x1x510 (![0, 1, 3] : Fin 3 → Fin S32x4x1x510.rank)
  shapeCasts_S32x4x1x510_S32x4x1x30x17 : S32x4x1x510.ShapeCasts S32x4x1x30x17
  bcast_S32x1x30x17_S32x1x1x30x17_0_2_3_4 : S32x1x30x17.BroadcastsInDim S32x1x1x30x17 (![0, 2, 3, 4] : Fin 4 → Fin S32x1x1x30x17.rank)
  bcast_S32x1x1x30x17_S32x4x1x30x17_0_1_2_3_4 : S32x1x1x30x17.BroadcastsInDim S32x4x1x30x17 (![0, 1, 2, 3, 4] : Fin 5 → Fin S32x4x1x30x17.rank)
  bcast_S32x30x17_S32x1x1x30x17_0_3_4 : S32x30x17.BroadcastsInDim S32x1x1x30x17 (![0, 3, 4] : Fin 3 → Fin S32x1x1x30x17.rank)
  reducesTo_S32x4x1x30x17_S32x4x1_d3_4 : S32x4x1x30x17.ReducesTo [3, 4] S32x4x1
  reducesTo_S32x4x1_S32x4_d2 : S32x4x1.ReducesTo [2] S32x4
  bcast_S_S32x4 : S_.BroadcastsInDim S32x4 (![] : Fin 0 → Fin S32x4.rank)
  slices_S32x4x34x128x128_S32x4x17x128x128_0_0_0_0_0 : S32x4x34x128x128.Slices ![0, 0, 0, 0, 0] S32x4x17x128x128
  bcast_S32x17x128x128_S32x1x17x128x128_0_2_3_4 : S32x17x128x128.BroadcastsInDim S32x1x17x128x128 (![0, 2, 3, 4] : Fin 4 → Fin S32x1x17x128x128.rank)
  bcast_S32x1x17x128x128_S32x4x17x128x128_0_1_2_3_4 : S32x1x17x128x128.BroadcastsInDim S32x4x17x128x128 (![0, 1, 2, 3, 4] : Fin 5 → Fin S32x4x17x128x128.rank)
  bcast_S32x128x128_S32x1x1x128x128_0_3_4 : S32x128x128.BroadcastsInDim S32x1x1x128x128 (![0, 3, 4] : Fin 3 → Fin S32x1x1x128x128.rank)
  bcast_S32x1x1x128x128_S32x4x17x128x128_0_1_2_3_4 : S32x1x1x128x128.BroadcastsInDim S32x4x17x128x128 (![0, 1, 2, 3, 4] : Fin 5 → Fin S32x4x17x128x128.rank)
  reducesTo_S32x4x17x128x128_S32x4_d2_3_4 : S32x4x17x128x128.ReducesTo [2, 3, 4] S32x4
  reducesTo_S32x4_S_d0_1 : S32x4.ReducesTo [0, 1] S_
  gather_S32x4x1x278528_S32x4x510x1_S32x4x1x510_2_3_01_01_3_3_1111_wf : GatherDims.WF S32x4x1x278528 S32x4x510x1 S32x4x1x510 [2] [3] [0, 1] [3] [0, 1] 3 ![1, 1, 1, 1]

variable [Facts₀]

def gather_S32x4x1x278528_S32x4x510x1_S32x4x1x510_2_3_01_01_3_3_1111 : GatherDims S32x4x1x278528 S32x4x510x1 S32x4x1x510 where
  offsetDims := [2]
  collapsedSliceDims := [3]
  operandBatchingDims := [0, 1]
  startIndicesBatchingDims := [0, 1]
  startIndexMap := [3]
  indexVectorDim := 3
  sliceSizes := ![1, 1, 1, 1]
  wf := gather_S32x4x1x278528_S32x4x510x1_S32x4x1x510_2_3_01_01_3_3_1111_wf

class Facts : Prop extends Facts₀ where

variable [Facts]
-- ==== Proof.Pieces.lean ====
/-
  What the kernel body leaves behind at a grid point, in each of its three control cases, as values.

  The body keeps a running total in a one-entry scratch cell. At the first image (case A) it stores zero into the
  cell, reads it back and stores the total plus this image's block sum; at a middle image (case B) it adds this
  image's block sum to what the image before left; at the last image (case C) it does the same and then stores
  the cell's contents divided by the entry count into the one-entry output. Each store covers its whole
  one-entry buffer, and each load reads a whole staging buffer, so the contents left are the stores' payloads
  applied to the buffers' contents — for every float instance.
-/
import proofs.«152930_j83880711290948_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- FIRST image: the scratch cell ends at zero plus the image's block sum (the zero stored, read back, added to). -/
theorem scratch_A (c : Dev nD) (i : grid0.Coords) (a1 : Memref sig .tc .vmem S1x4x17x128x128 .f32) (h1 : a1.IsWhole)
    (a2 : Memref sig .tc .vmem S1x17x128x128 .f32) (h2 : a2.IsWhole) (a3 : Memref sig .tc .vmem S1x128x128 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 : Vec F S1x4x17x128x128 .f32) (x1 : Vec F S1x17x128x128 .f32) (x2 : Vec F S1x128x128 .f32) :
    sout0_A_0 c i a1 h1 a2 h2 a3 h3 a4 h4 a5 h5 hc0 hc1 x0 x1 x2 = k0_pay2 x0 x1 x2 (k0_pay1 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h5.read_unread,
    View.ld_unit_zero (S := S1x4x17x128x128) hz5, View.ld_unit_zero (S := S1x17x128x128) hz4,
    View.ld_unit_zero (S := S1x128x128) hz3, View.ld_unit_zero (S := S1x1) hz2]

/-- MIDDLE image: the scratch cell ends at what the image before left plus this image's block sum. -/
theorem scratch_B (c : Dev nD) (i : grid0.Coords) (a1 : Memref sig .tc .vmem S1x4x17x128x128 .f32) (h1 : a1.IsWhole)
    (a2 : Memref sig .tc .vmem S1x17x128x128 .f32) (h2 : a2.IsWhole) (a3 : Memref sig .tc .vmem S1x128x128 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 : Vec F S1x4x17x128x128 .f32) (x1 : Vec F S1x17x128x128 .f32) (x2 : Vec F S1x128x128 .f32) (xs : Vec F S1x1 .f32) :
    sout0_B_0 c i a1 h1 a2 h2 a3 h3 a4 h4 a5 h5 hc0 hc1 x0 x1 x2 xs = k0_pay2 x0 x1 x2 xs := by
  unfold sout0_B_0
  rw [View.read_writes_eq_canon _ _ _ (scover0_B_0 c i a1 h1 a2 h2 a3 h3 a4 h4 a5 h5 hc0 hc1 x0 x1 x2 xs)]
  unfold kernelRun0_B
  dsimp only
  rw [View.canon_unit_zero (S := S1x1) hz2]
  simp only [View.readAt_eq_ld, h1.read_unread, h2.read_unread, h3.read_unread, h5.read_unread,
    View.ld_unit_zero (S := S1x4x17x128x128) hz5, View.ld_unit_zero (S := S1x17x128x128) hz4,
    View.ld_unit_zero (S := S1x128x128) hz3, View.ld_unit_zero (S := S1x1) hz2]

/-- LAST image: the scratch cell likewise … -/
theorem scratch_C (c : Dev nD) (i : grid0.Coords) (a1 : Memref sig .tc .vmem S1x4x17x128x128 .f32) (h1 : a1.IsWhole)
    (a2 : Memref sig .tc .vmem S1x17x128x128 .f32) (h2 : a2.IsWhole) (a3 : Memref sig .tc .vmem S1x128x128 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 : Vec F S1x4x17x128x128 .f32) (x1 : Vec F S1x17x128x128 .f32) (x2 : Vec F S1x128x128 .f32) (xs : Vec F S1x1 .f32) :
    sout0_C_0 c i a1 h1 a2 h2 a3 h3 a4 h4 a5 h5 hc0 hc1 x0 x1 x2 xs = k0_pay2 x0 x1 x2 xs := by
  unfold sout0_C_0
  rw [View.read_writes_eq_canon _ _ _ (scover0_C_0 c i a1 h1 a2 h2 a3 h3 a4 h4 a5 h5 hc0 hc1 x0 x1 x2 xs)]
  unfold kernelRun0_C
  dsimp only
  sl_unfold_words
  rw [View.canon_unit_zero (S := S1x1) hz2]
  simp only [View.readAt_eq_ld, h1.read_unread, h2.read_unread, h3.read_unread, h5.read_unread,
    View.ld_unit_zero (S := S1x4x17x128x128) hz5, View.ld_unit_zero (S := S1x17x128x128) hz4,
    View.ld_unit_zero (S := S1x128x128) hz3, View.ld_unit_zero (S := S1x1) hz2]

/-- … and the output cell ends at that total divided by the entry count. -/
theorem out_C (c : Dev nD) (i : grid0.Coords) (a1 : Memref sig .tc .vmem S1x4x17x128x128 .f32) (h1 : a1.IsWhole)
    (a2 : Memref sig .tc .vmem S1x17x128x128 .f32) (h2 : a2.IsWhole) (a3 : Memref sig .tc .vmem S1x128x128 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 : Vec F S1x4x17x128x128 .f32) (x1 : Vec F S1x17x128x128 .f32) (x2 : Vec F S1x128x128 .f32) (xs : Vec F S1x1 .f32) :
    out0_C_3 c i a1 h1 a2 h2 a3 h3 a4 h4 a5 h5 hc0 hc1 x0 x1 x2 xs = k0_pay3 (k0_pay2 x0 x1 x2 xs) := by
  unfold out0_C_3
  rw [View.read_writes_eq_canon _ _ _ (cover0_C_3 c i a1 h1 a2 h2 a3 h3 a4 h4 a5 h5 hc0 hc1 x0 x1 x2 xs)]
  unfold kernelRun0_C
  dsimp only
  sl_unfold_words
  rw [View.canon_unit_zero (S := S1x1) hz2, View.readCov_unit_zero (S := S1x1) _ hz2]
  simp only [View.readAt_eq_ld, h1.read_unread, h2.read_unread, h3.read_unread, h5.read_unread,
    View.ld_unit_zero (S := S1x4x17x128x128) hz5, View.ld_unit_zero (S := S1x17x128x128) hz4,
    View.ld_unit_zero (S := S1x128x128) hz3, View.ld_unit_zero (S := S1x1) hz2]

end Cert.KernelIdeal.Pieces

end
-- ==== Proof.Consts.lean ====
/-
  The float words the two programs spell in the heatmap term, as the reals they denote: the three element counts
  278528 = 17 · 128 · 128 (one image-stack's heatmap entries), 128 = 32 · 4 (the image-stacks) and
  35651584 = 278528 · 128 (all entries), each a small odd multiple of a power of two and so exact in binary32.
  Only this module evaluates a bit pattern.
-/
import Idealize.ShloMosaic.PureOps.Ideal

noncomputable section

namespace Cert.Consts

open Idealize.ShloMosaic

/-- `278528.0`: the number of heatmap entries of one image-stack, the inner mean's divisor. -/
theorem ofBits_278528 : Ideal.ofBits .f32 0x48880000#32 = ((278528 : ℝ) : EReal) := by
  simp [Ideal.ofBits, Ideal.ieee, -EReal.coe_mul]; norm_num

/-- `128.0`: the number of image-stacks, the outer mean's divisor. -/
theorem ofBits_128 : Ideal.ofBits .f32 0x43000000#32 = ((128 : ℝ) : EReal) := by
  simp [Ideal.ofBits, Ideal.ieee, -EReal.coe_mul]; norm_num

/-- `35651584.0`: the number of all heatmap entries, the kernel's one divisor. -/
theorem ofBits_35651584 : Ideal.ofBits .f32 0x4C080000#32 = ((35651584 : ℝ) : EReal) := by
  simp [Ideal.ofBits, Ideal.ieee, -EReal.coe_mul]; norm_num

/-- `+0.0` denotes zero. -/
theorem ofBits_zero : Ideal.ofBits .f32 0x00000000#32 = 0 := by
  simp [Ideal.ofBits, Ideal.ieee]

end Cert.Consts

end
-- ==== Proof.Payload.lean ====
/-
  The kernel body's arithmetic read at an index, over the extended reals.

  One image's block of the predictions is [1, 4, 17, 128, 128] (stack s, part p, row y, column x), of the heatmaps
  [1, 17, 128, 128] and of the mask [1, 128, 128]. The body forms, at every (s, p, y, x), the weighted squared
  error  (pred(s,p,y,x) − heat(p,y,x))² · mask(y,x)  — the heatmap shared by the four stacks, the mask by the
  stacks and the parts — and sums it over x, then y, then p, then s, one axis at a time; the image's block sum is
  therefore the fourfold sum of the weighted squared errors, and the body adds it to the running total.
-/
import proofs.«152930_j83880711290948_2_alg».proof.Proof.Gen.KernelIdeal.Skeleton
import proofs.«152930_j83880711290948_2_alg».proof.Proof.Consts
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-! ## The layout operations of the body, each read at coordinates -/

section Layout
variable {α : Type}

/-- The predictions' block with its leading unit axis dropped: (s, p, y, x) reads (0, s, p, y, x). -/
theorem pred_cast (v : S1x4x17x128x128.Idx → α) (h : S1x4x17x128x128.ShapeCasts S4x17x128x128)
    (s : Fin 4) (p : Fin 17) (y x : Fin 128) :
    shapeCast S4x17x128x128 v h (ix4 s p y x) = v (ix5 (0 : Fin 1) s p y x) := by
  refine shapeCast_apply v h _ _ ?_
  rw [Shape.rowMajor_val_five, Shape.rowMajor_val_four]
  show ((((0 * 4 + s.val) * 17 + p.val) * 128 + y.val) * 128 + x.val) = (((s.val * 17 + p.val) * 128 + y.val) * 128 + x.val)
  omega

/-- The heatmaps' block with its leading unit axis dropped: (p, y, x) reads (0, p, y, x). -/
theorem heat_cast (v : S1x17x128x128.Idx → α) (h : S1x17x128x128.ShapeCasts S17x128x128)
    (p : Fin 17) (y x : Fin 128) :
    shapeCast S17x128x128 v h (ix3 p y x) = v (ix4 (0 : Fin 1) p y x) := by
  refine shapeCast_apply v h _ _ ?_
  rw [Shape.rowMajor_val_four, Shape.rowMajor_val_three]
  show (((0 * 17 + p.val) * 128 + y.val) * 128 + x.val) = ((p.val * 128 + y.val) * 128 + x.val)
  omega

/-- The mask's block with its leading unit axis dropped: (y, x) reads (0, y, x). -/
theorem mask_cast (v : S1x128x128.Idx → α) (h : S1x128x128.ShapeCasts S128x128) (y x : Fin 128) :
    shapeCast S128x128 v h (ix2 y x) = v (ix3 (0 : Fin 1) y x) := by
  refine shapeCast_apply v h _ _ ?_
  rw [Shape.rowMajor_val_three, Shape.rowMajor_val_two]
  show ((0 * 128 + y.val) * 128 + x.val) = (y.val * 128 + x.val)
  omega

/-- The heatmaps given a unit stack axis: (0, p, y, x) reads (p, y, x). -/
theorem heat_unit (v : S17x128x128.Idx → α) (h : S17x128x128.ShapeCasts S1x17x128x128)
    (p : Fin 17) (y x : Fin 128) :
    shapeCast S1x17x128x128 v h (ix4 (0 : Fin 1) p y x) = v (ix3 p y x) := by
  refine shapeCast_apply v h _ _ ?_
  rw [Shape.rowMajor_val_four, Shape.rowMajor_val_three]
  show ((p.val * 128 + y.val) * 128 + x.val) = (((0 * 17 + p.val) * 128 + y.val) * 128 + x.val)
  omega

/-- … and broadcast over the four stacks: (s, p, y, x) reads (0, p, y, x). -/
theorem heat_bcast (v : S1x17x128x128.Idx → α) (h : S1x17x128x128.Broadcasts S4x17x128x128)
    (s : Fin 4) (p : Fin 17) (y x : Fin 128) :
    broadcastTo S4x17x128x128 v h (ix4 s p y x) = v (ix4 (0 : Fin 1) p y x) := by
  refine broadcastTo_apply v h _ _ fun a => ?_
  match a with
  | ⟨0, _⟩ => rfl
  | ⟨1, _⟩ => rfl
  | ⟨2, _⟩ => rfl
  | ⟨3, _⟩ => rfl

/-- The mask given unit stack and part axes: (0, 0, y, x) reads (y, x). -/
theorem mask_unit (v : S128x128.Idx → α) (h : S128x128.ShapeCasts S1x1x128x128) (y x : Fin 128) :
    shapeCast S1x1x128x128 v h (ix4 (0 : Fin 1) (0 : Fin 1) y x) = v (ix2 y x) := by
  refine shapeCast_apply v h _ _ ?_
  rw [Shape.rowMajor_val_four, Shape.rowMajor_val_two]
  show (y.val * 128 + x.val) = (((0 * 1 + 0) * 128 + y.val) * 128 + x.val)
  omega

/-- … and broadcast over the stacks and the parts: (s, p, y, x) reads (0, 0, y, x). -/
theorem mask_bcast (v : S1x1x128x128.Idx → α) (h : S1x1x128x128.Broadcasts S4x17x128x128)
    (s : Fin 4) (p : Fin 17) (y x : Fin 128) :
    broadcastTo S4x17x128x128 v h (ix4 s p y x) = v (ix4 (0 : Fin 1) (0 : Fin 1) y x) := by
  refine broadcastTo_apply v h _ _ fun a => ?_
  match a with
  | ⟨0, _⟩ => rfl
  | ⟨1, _⟩ => rfl
  | ⟨2, _⟩ => rfl
  | ⟨3, _⟩ => rfl

/-- The per-stack sums stood up as a column: (s, 0) reads s. -/
theorem col_cast (v : S4.Idx → α) (h : S4.ShapeCasts S4x1) (s : Fin 4) :
    shapeCast S4x1 v h (ix2 s (0 : Fin 1)) = v (ix1 s) := by
  refine shapeCast_apply v h _ _ ?_
  rw [Shape.rowMajor_val_two, Shape.rowMajor_val_one]
  show s.val = s.val * 1 + 0
  omega

/-- The one total given a second unit axis: every index of [1, 1] reads the one entry of [1]. -/
theorem cell_cast (v : S1.Idx → α) (h : S1.ShapeCasts S1x1) (j : S1x1.Idx) :
    shapeCast S1x1 v h j = v (ix1 (0 : Fin 1)) := by
  refine shapeCast_apply v h _ _ ?_
  rw [Shape.rowMajor_val_two, Shape.rowMajor_val_one]
  have h0 : (j 0).val = 0 := by have h : (j 0).val < 1 := (j 0).isLt; omega
  have h1 : (j 1).val = 0 := by have h : (j 1).val < 1 := (j 1).isLt; omega
  show 0 = (j 0).val * 1 + (j 1).val
  omega

end Layout

/-! ## The four lane sums, each over one axis -/

section Sums

/-- Over the columns: at (s, p, y), the sum over x. -/
theorem sum_x (v : FVec Ideal S4x17x128x128 .f32) (hφ : FKind.Formats .f32)
    (hacc : (0x00000000#32 : BitVec 32) = 0x00000000#32) (s : Fin 4) (p : Fin 17) (y : Fin 128) :
    multiReduction .add [3] S4x17x128 v 0x00000000#32 reduces_S4x17x128x128_S4x17x128 hφ hacc (ix3 s p y)
      = ∑ x : Fin 128, v (ix4 s p y x) := by
  refine (Ideal.multiReduction_add_single v 0x00000000#32 reduces_S4x17x128x128_S4x17x128 hφ hacc (ix3 s p y)).trans ?_
  refine Finset.sum_congr rfl fun x _ => congrArg v (funext fun a => Fin.ext ?_)
  match a with
  | ⟨0, _⟩ => rfl
  | ⟨1, _⟩ => rfl
  | ⟨2, _⟩ => rfl
  | ⟨3, _⟩ => rfl

/-- Over the rows: at (s, p), the sum over y. -/
theorem sum_y (v : FVec Ideal S4x17x128 .f32) (hφ : FKind.Formats .f32)
    (hacc : (0x00000000#32 : BitVec 32) = 0x00000000#32) (s : Fin 4) (p : Fin 17) :
    multiReduction .add [2] S4x17 v 0x00000000#32 reduces_S4x17x128_S4x17 hφ hacc (ix2 s p)
      = ∑ y : Fin 128, v (ix3 s p y) := by
  refine (Ideal.multiReduction_add_single v 0x00000000#32 reduces_S4x17x128_S4x17 hφ hacc (ix2 s p)).trans ?_
  refine Finset.sum_congr rfl fun y _ => congrArg v (funext fun a => Fin.ext ?_)
  match a with
  | ⟨0, _⟩ => rfl
  | ⟨1, _⟩ => rfl
  | ⟨2, _⟩ => rfl

/-- Over the parts: at s, the sum over p. -/
theorem sum_p (v : FVec Ideal S4x17 .f32) (hφ : FKind.Formats .f32)
    (hacc : (0x00000000#32 : BitVec 32) = 0x00000000#32) (s : Fin 4) :
    multiReduction .add [1] S4 v 0x00000000#32 reduces_S4x17_S4 hφ hacc (ix1 s)
      = ∑ p : Fin 17, v (ix2 s p) := by
  refine (Ideal.multiReduction_add_single v 0x00000000#32 reduces_S4x17_S4 hφ hacc (ix1 s)).trans ?_
  refine Finset.sum_congr rfl fun p _ => congrArg v (funext fun a => Fin.ext ?_)
  match a with
  | ⟨0, _⟩ => rfl
  | ⟨1, _⟩ => rfl

/-- Over the stacks (stood up as a column): the one entry is the sum over s. -/
theorem sum_s (v : FVec Ideal S4x1 .f32) (hφ : FKind.Formats .f32)
    (hacc : (0x00000000#32 : BitVec 32) = 0x00000000#32) :
    multiReduction .add [0] S1 v 0x00000000#32 reduces_S4x1_S1 hφ hacc (ix1 (0 : Fin 1))
      = ∑ s : Fin 4, v (ix2 s (0 : Fin 1)) := by
  refine (Ideal.multiReduction_add_single v 0x00000000#32 reduces_S4x1_S1 hφ hacc (ix1 (0 : Fin 1))).trans ?_
  refine Finset.sum_congr rfl fun s _ => congrArg v (funext fun a => Fin.ext ?_)
  match a with
  | ⟨0, _⟩ => rfl
  | ⟨1, _⟩ => rfl

end Sums

/-! ## The payloads -/

/-- One image's block sum: the weighted squared errors summed over stack, part, row and column. -/
def blockSum (x0 : Vec Ideal S1x4x17x128x128 .f32) (x1 : Vec Ideal S1x17x128x128 .f32) (x2 : Vec Ideal S1x128x128 .f32) : EReal :=
  ∑ s : Fin 4, ∑ p : Fin 17, ∑ y : Fin 128, ∑ x : Fin 128,
    (x0 (ix5 (0 : Fin 1) s p y x) - x1 (ix4 (0 : Fin 1) p y x)) * (x0 (ix5 (0 : Fin 1) s p y x) - x1 (ix4 (0 : Fin 1) p y x))
      * x2 (ix3 (0 : Fin 1) y x)

/-- The accumulating store's payload: the running total plus the image's block sum. -/
theorem pay2_apply (x0 : Vec Ideal S1x4x17x128x128 .f32) (x1 : Vec Ideal S1x17x128x128 .f32) (x2 : Vec Ideal S1x128x128 .f32)
    (acc : Vec Ideal S1x1 .f32) (j : S1x1.Idx) :
    k0_pay2 (F := Ideal) x0 x1 x2 acc j = acc j + blockSum x0 x1 x2 := by
  unfold k0_pay2
  dsimp only
  rw [shapeCast_self]
  show acc j + _ = _
  congr 1
  rw [cell_cast, sum_s]
  unfold blockSum
  refine Finset.sum_congr rfl fun s _ => ?_
  rw [col_cast, sum_p]
  refine Finset.sum_congr rfl fun p _ => ?_
  rw [sum_y]
  refine Finset.sum_congr rfl fun y _ => ?_
  rw [sum_x]
  refine Finset.sum_congr rfl fun x _ => ?_
  rw [mulf_apply, mulf_apply, subf_apply, pred_cast, heat_bcast, heat_unit, heat_cast, mask_bcast, mask_unit, mask_cast]

/-- The resetting store's payload: zero. -/
theorem pay1_apply (j : S1x1.Idx) : k0_pay1 (F := Ideal) j = 0 := by
  unfold k0_pay1
  rw [shapeCast_self]
  exact Cert.Consts.ofBits_zero

/-- The final store's payload: the total divided by the number of all heatmap entries. -/
theorem pay3_apply (v : Vec Ideal S1x1 .f32) (j : S1x1.Idx) :
    k0_pay3 (F := Ideal) v j = Ideal.div (v j) ((35651584 : ℝ) : EReal) := by
  unfold k0_pay3
  show Ideal.div (v j) (Ideal.ofBits .f32 0x4C080000#32) = _
  rw [Cert.Consts.ofBits_35651584]

end Cert.KernelIdeal.Payload

end
-- ==== Proof.Blocks.lean ====
/-
  The blocks the pipeline hands the body at image `t`, read at coordinates.

  Each of the three input windows cuts its array along the batch axis only: image `t`'s block is the array's slice
  at batch index `t` — of the predictions the first seventeen of the thirty-four channels (the block is seventeen
  channels deep and its channel block index is always zero), of the heatmaps and of the mask the whole slice.
  So an entry of a block at (0, …) is the array's entry at (t, …).
-/
import proofs.«152930_j83880711290948_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- There are thirty-two images. -/
theorem lt32 (t : Fin cfg0.N) : t.val < 32 := lt_of_lt_of_eq t.isLt (show cfg0.N = 32 from N_0)

/-- The predictions' window: block index `t` on the batch axis, zero on the others. -/
theorem idx0 : ∀ t : Fin cfg0.N, win0_0.index t (0 : Fin 5) = t.val ∧ win0_0.index t (1 : Fin 5) = 0
    ∧ win0_0.index t (2 : Fin 5) = 0 ∧ win0_0.index t (3 : Fin 5) = 0 ∧ win0_0.index t (4 : Fin 5) = 0 :=
  (by decide +kernel : ∀ t : Fin grid0.N, _)

/-- The heatmaps' window likewise. -/
theorem idx1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The mask's window likewise. -/
theorem idx2 : ∀ t : Fin cfg0.N, win0_2.index t (0 : Fin 3) = t.val ∧ win0_2.index t (1 : Fin 3) = 0
    ∧ win0_2.index t (2 : Fin 3) = 0 :=
  (by decide +kernel : ∀ t : Fin grid0.N, _)

/-- Image `t`'s block of the predictions at (0, s, p, y, x) is the predictions at (t, s, p, y, x), `p` among the
    first seventeen channels. -/
theorem pred_block (c : Dev nD) (t : Fin cfg0.N) (s : Fin 4) (p : Fin 17) (y x : Fin 128) :
    (iblk m c 0 t : Vec F S1x4x17x128x128 .f32) (ix5 (0 : Fin 1) s p y x)
      = m ((c.tc : Thread nD τ).loc main_arg0)
          (ix5 (⟨t.val, lt32 t⟩ : Fin 32) s (⟨p.val, by have := p.isLt; omega⟩ : Fin 34) y x) := by
  have hi := idx0 t
  unfold iblk
  rw [View.read_apply]
  show V m c main_arg0 _ = m ((c.tc : Thread nD τ).loc main_arg0) _
  refine congrArg (m ((c.tc : Thread nD τ).loc main_arg0)) (funext fun a => Fin.ext ?_)
  match a with
  | ⟨0, _⟩ => show win0_0.index t 0 * 1 + 1 * 0 = t.val; rw [hi.1]; omega
  | ⟨1, _⟩ => show win0_0.index t 1 * 4 + 1 * s.val = s.val; rw [hi.2.1]; omega
  | ⟨2, _⟩ => show win0_0.index t 2 * 17 + 1 * p.val = p.val; rw [hi.2.2.1]; omega
  | ⟨3, _⟩ => show win0_0.index t 3 * 128 + 1 * y.val = y.val; rw [hi.2.2.2.1]; omega
  | ⟨4, _⟩ => show win0_0.index t 4 * 128 + 1 * x.val = x.val; rw [hi.2.2.2.2]; omega

/-- Image `t`'s block of the heatmaps at (0, p, y, x) is the heatmaps at (t, p, y, x). -/
theorem heat_block (c : Dev nD) (t : Fin cfg0.N) (p : Fin 17) (y x : Fin 128) :
    (iblk m c 1 t : Vec F S1x17x128x128 .f32) (ix4 (0 : Fin 1) p y x)
      = m ((c.tc : Thread nD τ).loc main_arg5) (ix4 (⟨t.val, lt32 t⟩ : Fin 32) p y x) := by
  have hi := idx1 t
  unfold iblk
  rw [View.read_apply]
  show V m c main_arg5 _ = m ((c.tc : Thread nD τ).loc main_arg5) _
  refine congrArg (m ((c.tc : Thread nD τ).loc main_arg5)) (funext fun a => Fin.ext ?_)
  match a with
  | ⟨0, _⟩ => show win0_1.index t 0 * 1 + 1 * 0 = t.val; rw [hi.1]; omega
  | ⟨1, _⟩ => show win0_1.index t 1 * 17 + 1 * p.val = p.val; rw [hi.2.1]; omega
  | ⟨2, _⟩ => show win0_1.index t 2 * 128 + 1 * y.val = y.val; rw [hi.2.2.1]; omega
  | ⟨3, _⟩ => show win0_1.index t 3 * 128 + 1 * x.val = x.val; rw [hi.2.2.2]; omega

/-- Image `t`'s block of the mask at (0, y, x) is the mask at (t, y, x). -/
theorem mask_block (c : Dev nD) (t : Fin cfg0.N) (y x : Fin 128) :
    (iblk m c 2 t : Vec F S1x128x128 .f32) (ix3 (0 : Fin 1) y x)
      = m ((c.tc : Thread nD τ).loc main_arg1) (ix3 (⟨t.val, lt32 t⟩ : Fin 32) y x) := by
  have hi := idx2 t
  unfold iblk
  rw [View.read_apply]
  show V m c main_arg1 _ = m ((c.tc : Thread nD τ).loc main_arg1) _
  refine congrArg (m ((c.tc : Thread nD τ).loc main_arg1)) (funext fun a => Fin.ext ?_)
  match a with
  | ⟨0, _⟩ => show win0_2.index t 0 * 1 + 1 * 0 = t.val; rw [hi.1]; omega
  | ⟨1, _⟩ => show win0_2.index t 1 * 128 + 1 * y.val = y.val; rw [hi.2.1]; omega
  | ⟨2, _⟩ => show win0_2.index t 2 * 128 + 1 * x.val = x.val; rw [hi.2.2]; omega

end Cert.KernelIdeal.Blocks

end
-- ==== Proof.Spec.lean ====
/-
  The heatmap term's mathematics, over no program: the weighted squared error at an entry, an image's sum of them,
  and the sum over everything.

  `wsq` at (image b, stack s, part p, row y, column x) is
      (pred(b, s, p, y, x) − heat(b, p, y, x))² · mask(b, y, x),
  the prediction taken among the first seventeen of its thirty-four channels; `imgSum b` sums it over s, p, y, x;
  the heatmap term of both programs is the sum of `imgSum` over the thirty-two images divided by the number of
  entries 32 · 4 · 17 · 128 · 128 = 35651584.
-/
import Idealize.ShloMosaic.Lib.ValueIdx

noncomputable section

open scoped BigOperators

namespace Cert.Spec

open Idealize.ShloMosaic Idealize.ShloMosaic.ValueIdx

/-- A part index among the prediction's thirty-four channels. -/
abbrev chan (p : Fin 17) : Fin 34 := ⟨p.val, by have := p.isLt; omega⟩

/-- The weighted squared error at one entry. -/
def wsq (pred : (⟨5, ![32, 4, 34, 128, 128]⟩ : Shape).Idx → EReal) (mask : (⟨3, ![32, 128, 128]⟩ : Shape).Idx → EReal)
    (heat : (⟨4, ![32, 17, 128, 128]⟩ : Shape).Idx → EReal) (b : Fin 32) (s : Fin 4) (p : Fin 17) (y x : Fin 128) : EReal :=
  (pred (ix5 b s (chan p) y x) - heat (ix4 b p y x)) * (pred (ix5 b s (chan p) y x) - heat (ix4 b p y x)) * mask (ix3 b y x)

/-- One image's sum of the weighted squared errors. -/
def imgSum (pred : (⟨5, ![32, 4, 34, 128, 128]⟩ : Shape).Idx → EReal) (mask : (⟨3, ![32, 128, 128]⟩ : Shape).Idx → EReal)
    (heat : (⟨4, ![32, 17, 128, 128]⟩ : Shape).Idx → EReal) (b : Fin 32) : EReal :=
  ∑ s : Fin 4, ∑ p : Fin 17, ∑ y : Fin 128, ∑ x : Fin 128, wsq pred mask heat b s p y x

end Cert.Spec

end
-- ==== Proof.ScaledSum.lean ====
/-
  Sums of extended reals scaled by a nonnegative real.

  On the extended reals multiplication does not distribute over addition in general (⊤ + ⊥ = ⊥), but a
  finite NONNEGATIVE REAL factor does, whatever infinities the terms hold: c · ⊤ = ⊤ and c · ⊥ = ⊥ keep their
  places in the sum. So a mean taken in two stages — each group's sum divided by the group's size, the quotients
  summed and divided by the number of groups — is the plain sum of all terms divided by the product of the two
  counts, with no finiteness assumed of the terms.
-/
import Idealize.ShloMosaic.PureOps.Ideal

noncomputable section

namespace Cert.ScaledSum

open Idealize.ShloMosaic

/-- A nonnegative real factor distributes over a finite sum of extended reals. -/
theorem sum_mul_coe {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (EReal.coe_nonneg.mpr ha) (EReal.coe_ne_top a), ih]

/-- The two-stage mean: dividing each term by `A`, summing from zero, and dividing the sum by `B` is
    dividing the plain sum by `C = A · B` (all three positive reals). The terms `g j` are arbitrary extended reals. -/
theorem div_sum_div {ι : Type} [Fintype ι] (g : ι → EReal) {A B C : ℝ} (hA : 0 < A) (hB : 0 < B) (hC : A * B = C) :
    Ideal.div (0 + ∑ j, Ideal.div (0 + g j) (A : EReal)) (B : EReal) = Ideal.div (∑ j, g j) (C : EReal) := by
  have hC0 : C ≠ 0 := by rw [← hC]; exact (mul_pos hA hB).ne'
  rw [Ideal.div_coe hB.ne', Ideal.div_coe hC0, zero_add]
  simp only [Ideal.div_coe hA.ne', zero_add]
  rw [← sum_mul_coe Finset.univ g (by positivity : (0 : ℝ) ≤ 1 / A), mul_assoc, ← EReal.coe_mul]
  congr 2
  rw [← hC]; field_simp

/-! ## A running total is the sum -/

/-- A family indexed below `N` read at any natural number: zero past the end. -/
def pad {N : ℕ} (g : Fin N → EReal) (k : ℕ) : EReal := if h : k < N then g ⟨k, h⟩ else 0

/-- A running total: zero plus the first term, then each next term added on the right — the order in which a
    cell that is cleared at the first step and added to at every step accumulates. -/
def running {N : ℕ} (g : Fin N → EReal) : ℕ → EReal
  | 0 => 0 + pad g 0
  | n + 1 => running g n + pad g (n + 1)

/-- After step `n` the running total is the sum of the terms up to `n` (addition of extended reals is
    associative and commutative, so the order leaves no trace). -/
theorem running_eq_sum {N : ℕ} (g : Fin N → EReal) (n : ℕ) : running g n = ∑ k ∈ Finset.range (n + 1), pad g k := by
  induction n with
  | zero => simp [running]
  | succ n ih => rw [running, ih, Finset.sum_range_succ _ (n + 1)]

/-- After the last step it is the sum of the whole family. -/
theorem running_last {N : ℕ} (g : Fin N → EReal) (n : ℕ) (hn : n + 1 = N) : running g n = ∑ b : Fin N, g b := by
  subst hn
  rw [running_eq_sum, ← Fin.sum_univ_eq_sum_range (fun k => pad g k) (n + 1)]
  refine Finset.sum_congr rfl fun b _ => ?_
  simp [pad, b.isLt]

end Cert.ScaledSum

end
-- ==== Proof.Accum.lean ====
/-
  What the scratch cell and the output cell hold after each image: the running total of the images' sums.

  After the first image the cell holds 0 plus that image's sum; after every later image what it held plus that
  image's sum; so after image n it holds the sum of the first n + 1 images' sums, and after the last image the sum
  over all thirty-two. At the last image the body also stores that total divided by the number of entries into the
  output cell. The proof is an induction on the image, one step per control case of the body.
-/
import proofs.«152930_j83880711290948_2_alg».proof.Proof.Pieces
import proofs.«152930_j83880711290948_2_alg».proof.Proof.Payload
import proofs.«152930_j83880711290948_2_alg».proof.Proof.Blocks
import proofs.«152930_j83880711290948_2_alg».proof.Proof.Spec
import proofs.«152930_j83880711290948_2_alg».proof.Proof.ScaledSum

noncomputable section

open Idealize.ShloMosaic Idealize.ShloMosaic.TcCoe Idealize.SL.Sem Idealize.ShloMosaic.ValueIdx

namespace Cert.KernelIdeal.Accum

open Cert.KernelIdeal Cert.KernelIdeal.Gen

/-! ## The three cases, for every float instance -/

section Cases
variable {F : FTy → Type} [FloatOps F]
variable (m : (ℓ : Loc nD τ sig) → Buf (Elt F) ℓ)

/-- After the FIRST image the scratch cell holds the accumulating payload of zero and the image's blocks. -/
theorem scratch_first (c : Dev nD) (t : Fin cfg0.N) (h0 : t.val % 32 = 0) (h1 : ¬t.val % 32 = 31) :
    (outsAt0 m c t.val t.isLt).2 = k0_pay2 (iblk m c 0 t) (iblk m c 1 t) (iblk m c 2 t) (k0_pay1 (F := F)) :=
  (congrArg Prod.snd (outsAt0_A m c t h0 h1)).trans
    (Pieces.scratch_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

/-- After a MIDDLE image it holds the accumulating payload of what the image before left and the image's blocks. -/
theorem scratch_middle (c : Dev nD) (t : Fin cfg0.N) (h0 : ¬t.val % 32 = 0) (h1 : ¬t.val % 32 = 31) :
    (outsAt0 m c t.val t.isLt).2 = k0_pay2 (iblk m c 0 t) (iblk m c 1 t) (iblk m c 2 t) (outsAt0 m c (t.val - 1) (Nat.lt_of_le_of_lt (Nat.sub_le _ _) t.isLt)).2 :=
  (congrArg Prod.snd (outsAt0_B m c t h0 h1)).trans
    (Pieces.scratch_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2)

/-- After the LAST image likewise … -/
theorem scratch_last (c : Dev nD) (t : Fin cfg0.N) (h0 : ¬t.val % 32 = 0) (h1 : t.val % 32 = 31) :
    (outsAt0 m c t.val t.isLt).2 = k0_pay2 (iblk m c 0 t) (iblk m c 1 t) (iblk m c 2 t) (outsAt0 m c (t.val - 1) (Nat.lt_of_le_of_lt (Nat.sub_le _ _) t.isLt)).2 :=
  (congrArg Prod.snd (outsAt0_C m c t h0 h1)).trans
    (Pieces.scratch_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

/-- … and the output cell holds the final payload of that. -/
theorem out_last (c : Dev nD) (t : Fin cfg0.N) (h0 : ¬t.val % 32 = 0) (h1 : t.val % 32 = 31) :
    (outsAt0 m c t.val t.isLt).1 = k0_pay3 (k0_pay2 (iblk m c 0 t) (iblk m c 1 t) (iblk m c 2 t) (outsAt0 m c (t.val - 1) (Nat.lt_of_le_of_lt (Nat.sub_le _ _) t.isLt)).2) :=
  (congrArg Prod.fst (outsAt0_C m c t h0 h1)).trans
    (Pieces.out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

end Cases

/-! ## The running total, over the extended reals -/

variable (m : (ℓ : Loc nD τ sig) → Buf (Elt Ideal) ℓ)

/-- The three argument arrays the heatmap term reads, as launched. -/
abbrev preds (c : Dev nD) := m ((c.tc : Thread nD τ).loc main_arg0)
abbrev masks (c : Dev nD) := m ((c.tc : Thread nD τ).loc main_arg1)
abbrev heats (c : Dev nD) := m ((c.tc : Thread nD τ).loc main_arg5)

/-- The images' sums, as a family over the thirty-two images. -/
abbrev sums (c : Dev nD) : Fin 32 → EReal := Cert.Spec.imgSum (preds m c) (masks m c) (heats m c)

/-- The block sum of image `t`'s three blocks is the image's sum of weighted squared errors. -/
theorem block_eq (c : Dev nD) (t : Fin cfg0.N) :
    Payload.blockSum (iblk m c 0 t) (iblk m c 1 t) (iblk m c 2 t) = sums m c ⟨t.val, Blocks.lt32 t⟩ := by
  show Payload.blockSum _ _ _ = Cert.Spec.imgSum (preds m c) (masks m c) (heats m c) ⟨t.val, Blocks.lt32 t⟩
  unfold Payload.blockSum Cert.Spec.imgSum Cert.Spec.wsq
  refine Finset.sum_congr rfl fun s _ => Finset.sum_congr rfl fun p _ => Finset.sum_congr rfl fun y _ =>
    Finset.sum_congr rfl fun x _ => ?_
  rw [Blocks.pred_block, Blocks.heat_block, Blocks.mask_block]

/-- After image `n` the scratch cell holds the running total of the images' sums. -/
theorem scratch_eq (c : Dev nD) : ∀ (n : ℕ) (h : n < cfg0.N) (j : S1x1.Idx),
    (outsAt0 m c n h).2 j = Cert.ScaledSum.running (sums m c) n
  | 0, h, j => by
    rw [show (outsAt0 m c 0 h).2 = _ from scratch_first m c ⟨0, h⟩ rfl (by show ¬(0 % 32 = 31); decide),
      Payload.pay2_apply, Payload.pay1_apply, block_eq]
    show _ = 0 + Cert.ScaledSum.pad (sums m c) 0
    rw [Cert.ScaledSum.pad, dif_pos (by norm_num : (0 : ℕ) < 32)]
  | n + 1, h, j => by
    have hN : cfg0.N = 32 := N_0
    have h0 : ¬(⟨n + 1, h⟩ : Fin cfg0.N).val % 32 = 0 := by dsimp only; omega
    have step : (outsAt0 m c (n + 1) h).2 j
        = (outsAt0 m c n (Nat.lt_of_succ_lt h)).2 j + sums m c ⟨n + 1, by omega⟩ := by
      by_cases h1 : (⟨n + 1, h⟩ : Fin cfg0.N).val % 32 = 31
      · rw [show (outsAt0 m c (n + 1) h).2 = _ from scratch_last m c ⟨n + 1, h⟩ h0 h1, Payload.pay2_apply, block_eq]
        rfl
      · rw [show (outsAt0 m c (n + 1) h).2 = _ from scratch_middle m c ⟨n + 1, h⟩ h0 h1, Payload.pay2_apply, block_eq]
        rfl
    rw [step, scratch_eq c n]
    show _ = Cert.ScaledSum.running (sums m c) n + Cert.ScaledSum.pad (sums m c) (n + 1)
    rw [Cert.ScaledSum.pad, dif_pos (by omega : n + 1 < 32)]

/-- After the last image the output cell holds the sum of all the images' sums divided by the number of entries. -/
theorem out_eq (c : Dev nD) (h : 31 < cfg0.N) (j : S1x1.Idx) :
    (outsAt0 m c 31 h).1 j = Ideal.div (∑ b : Fin 32, sums m c b) ((35651584 : ℝ) : EReal) := by
  have e1 := out_last m c ⟨31, h⟩ (by show ¬(31 % 32 = 0); decide) rfl
  have e2 := scratch_last m c ⟨31, h⟩ (by show ¬(31 % 32 = 0); decide) rfl
  rw [show (outsAt0 m c 31 h).1 = _ from e1.trans (congrArg k0_pay3 e2.symm), Payload.pay3_apply,
    show (outsAt0 m c (⟨31, h⟩ : Fin cfg0.N).val (⟨31, h⟩ : Fin cfg0.N).isLt).2 j = _ from scratch_eq m c 31 h j,
    Cert.ScaledSum.running_last (sums m c) 31 rfl]

end Cert.KernelIdeal.Accum

end
-- ==== Proof.RefRun.lean ====
/-
  The reference program's run, read back as a value.

  The reference is sixty-eight host operations in a straight line (the outlined `take_along_axis` standing in
  its call's place). From any launch memory every weakly fair execution ends with the result buffer holding the
  operations' composition of the six argument arrays, and the arguments unchanged. The composition is stated
  here over four named pieces, so that later modules can speak of each alone:

    `keyIdx`    — the keypoint positions, broadcast over the stacks, negative ones wrapped by the flat map length;
    `tagBranch` — 0.001 times the mean, over the 128 image-stacks, of the visibility-weighted squared differences
                  between the tags gathered at those positions (NaN where a position is out of range) and the
                  ground-truth tags;
    `sqErr`     — at every (image, stack, part, row, column), the squared difference of the first seventeen
                  prediction channels and the heatmaps, times the mask;
    `detBranch` — the mean over the image-stacks of each image-stack's mean of `sqErr`.

  The result is `tagBranch + 1.0 · detBranch`.
-/
import proofs.«152930_j83880711290948_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The pieces of the result -/

/-- The keypoint positions as gather indices: reshaped to one row per image, repeated for the four stacks, a negative
    position moved up by the flat map length 278528, then stood up as a column of one-entry index vectors. -/
def keyIdx (a2 : (⟨S32x30x17, .i32⟩ : BufTy).Contents (Elt F)) : (⟨S32x4x510x1, .i32⟩ : BufTy).Contents (Elt F) :=
  shapeCast _ (select (cmpi .slt (broadcastInDim S32x4x1x510 ![0, 1, 2, 3] bcast_S32x1x1x510_S32x4x1x510_0_1_2_3 (shapeCast _ a2 shapeCasts_S32x30x17_S32x1x1x510)) (broadcastInDim S32x4x1x510 ![] bcast_S_S32x4x1x510 (constantI S_ 32 0#32))) (addi (broadcastInDim S32x4x1x510 ![0, 1, 2, 3] bcast_S32x1x1x510_S32x4x1x510_0_1_2_3 (shapeCast _ a2 shapeCasts_S32x30x17_S32x1x1x510)) (broadcastInDim S32x4x1x510 ![] bcast_S_S32x4x1x510 (constantI S_ 32 278528#32))) (broadcastInDim S32x4x1x510 ![0, 1, 2, 3] bcast_S32x1x1x510_S32x4x1x510_0_1_2_3 (shapeCast _ a2 shapeCasts_S32x30x17_S32x1x1x510))) shapeCasts_S32x4x1x510_S32x4x510x1

/-- The tags at the keypoints: the last seventeen prediction channels flattened per image-stack and gathered at
    `keyIdx`, NaN wherever the position is outside [0, 278527]; minus the ground-truth tags. -/
def tagDiff (a0 : (⟨S32x4x34x128x128, .f32⟩ : BufTy).Contents (Elt F)) (a2 : (⟨S32x30x17, .i32⟩ : BufTy).Contents (Elt F)) (a4 : (⟨S32x1x30x17, .f32⟩ : BufTy).Contents (Elt F)) : (⟨S32x4x1x30x17, .f32⟩ : BufTy).Contents (Elt F) :=
  subf (shapeCast _ (select (broadcastInDim S32x4x1x510 ![0, 1, 3] bcast_S32x4x510_S32x4x1x510_0_1_3 (Host.reduce IntOp.andi (andi (cmpi .sge (keyIdx (F := F) a2) (broadcastInDim S32x4x510x1 ![] bcast_S_S32x4x510x1 (constantI S_ 32 0#32))) (cmpi .sle (keyIdx (F := F) a2) (broadcastInDim S32x4x510x1 ![0, 1, 2, 3] bcast_S1x1x1x1_S32x4x510x1_0_1_2_3 (broadcastInDim S1x1x1x1 ![3] bcast_S1_S1x1x1x1_3 (constantI S1 32 278527#32))))) (constantI S_ 1 1#1) reducesTo_S32x4x510x1_S32x4x510_d3 h_S_)) (Host.gather gather_S32x4x1x278528_S32x4x510x1_S32x4x1x510_2_3_01_01_3_3_1111 (shapeCast _ (extractStridedSlice S32x4x17x128x128 ![0, 0, 17, 0, 0] a0 slices_S32x4x34x128x128_S32x4x17x128x128_0_0_17_0_0) shapeCasts_S32x4x17x128x128_S32x4x1x278528) (keyIdx (F := F) a2)) (broadcastInDim S32x4x1x510 ![] bcast_S_S32x4x1x510 (constant S_ .f32 0x7FC00000#32))) shapeCasts_S32x4x1x510_S32x4x1x30x17) (broadcastInDim S32x4x1x30x17 ![0, 1, 2, 3, 4] bcast_S32x1x1x30x17_S32x4x1x30x17_0_1_2_3_4 (broadcastInDim S32x1x1x30x17 ![0, 2, 3, 4] bcast_S32x1x30x17_S32x1x1x30x17_0_2_3_4 a4))

/-- The tag term: the squared tag differences weighted by the keypoints' visibility, summed per image-stack, divided
    by the one tag dimension, summed over the image-stacks, divided by 128, times 0.001. -/
def tagBranch (a0 : (⟨S32x4x34x128x128, .f32⟩ : BufTy).Contents (Elt F)) (a2 : (⟨S32x30x17, .i32⟩ : BufTy).Contents (Elt F)) (a3 : (⟨S32x30x17, .f32⟩ : BufTy).Contents (Elt F)) (a4 : (⟨S32x1x30x17, .f32⟩ : BufTy).Contents (Elt F)) : (⟨S_, .f32⟩ : BufTy).Contents (Elt F) :=
  mulf (constant S_ .f32 0x3A83126F#32) (Host.divf (Host.reduceAdd (Host.divf (Host.reduceAdd (Host.reduceAdd (mulf (mulf (tagDiff a0 a2 a4) (tagDiff a0 a2 a4)) (broadcastInDim S32x4x1x30x17 ![0, 1, 2, 3, 4] bcast_S32x1x1x30x17_S32x4x1x30x17_0_1_2_3_4 (broadcastInDim S32x1x1x30x17 ![0, 3, 4] bcast_S32x30x17_S32x1x1x30x17_0_3_4 a3))) (constant S_ .f32 0x00000000#32) reducesTo_S32x4x1x30x17_S32x4x1_d3_4 h_S_) (constant S_ .f32 0x00000000#32) reducesTo_S32x4x1_S32x4_d2 h_S_) (broadcastInDim S32x4 ![] bcast_S_S32x4 (constant S_ .f32 0x3F800000#32))) (constant S_ .f32 0x00000000#32) reducesTo_S32x4_S_d0_1 h_S_) (constant S_ .f32 0x43000000#32))

/-- The heatmap error: predictions' first seventeen channels minus the heatmaps (shared by the stacks). -/
def detDiff (a0 : (⟨S32x4x34x128x128, .f32⟩ : BufTy).Contents (Elt F)) (a5 : (⟨S32x17x128x128, .f32⟩ : BufTy).Contents (Elt F)) : (⟨S32x4x17x128x128, .f32⟩ : BufTy).Contents (Elt F) :=
  subf (extractStridedSlice S32x4x17x128x128 ![0, 0, 0, 0, 0] a0 slices_S32x4x34x128x128_S32x4x17x128x128_0_0_0_0_0) (broadcastInDim S32x4x17x128x128 ![0, 1, 2, 3, 4] bcast_S32x1x17x128x128_S32x4x17x128x128_0_1_2_3_4 (broadcastInDim S32x1x17x128x128 ![0, 2, 3, 4] bcast_S32x17x128x128_S32x1x17x128x128_0_2_3_4 a5))

/-- The weighted squared error: the error squared, times the mask (shared by the stacks and the parts). -/
def sqErr (a0 : (⟨S32x4x34x128x128, .f32⟩ : BufTy).Contents (Elt F)) (a1 : (⟨S32x128x128, .f32⟩ : BufTy).Contents (Elt F)) (a5 : (⟨S32x17x128x128, .f32⟩ : BufTy).Contents (Elt F)) : (⟨S32x4x17x128x128, .f32⟩ : BufTy).Contents (Elt F) :=
  mulf (mulf (detDiff a0 a5) (detDiff a0 a5)) (broadcastInDim S32x4x17x128x128 ![0, 1, 2, 3, 4] bcast_S32x1x1x128x128_S32x4x17x128x128_0_1_2_3_4 (broadcastInDim S32x1x1x128x128 ![0, 3, 4] bcast_S32x128x128_S32x1x1x128x128_0_3_4 a1))

/-- The heatmap term: each image-stack's sum of `sqErr` divided by 278528, those summed and divided by 128. -/
def detBranch (a0 : (⟨S32x4x34x128x128, .f32⟩ : BufTy).Contents (Elt F)) (a1 : (⟨S32x128x128, .f32⟩ : BufTy).Contents (Elt F)) (a5 : (⟨S32x17x128x128, .f32⟩ : BufTy).Contents (Elt F)) : (⟨S_, .f32⟩ : BufTy).Contents (Elt F) :=
  Host.divf (Host.reduceAdd (Host.divf (Host.reduceAdd (sqErr a0 a1 a5) (constant S_ .f32 0x00000000#32) reducesTo_S32x4x17x128x128_S32x4_d2_3_4 h_S_) (broadcastInDim S32x4 ![] bcast_S_S32x4 (constant S_ .f32 0x48880000#32))) (constant S_ .f32 0x00000000#32) reducesTo_S32x4_S_d0_1 h_S_) (constant S_ .f32 0x43000000#32)

/-- The reference's result as a function of its six arguments. -/
def result (a0 : (⟨S32x4x34x128x128, .f32⟩ : BufTy).Contents (Elt F)) (a1 : (⟨S32x128x128, .f32⟩ : BufTy).Contents (Elt F)) (a2 : (⟨S32x30x17, .i32⟩ : BufTy).Contents (Elt F)) (a3 : (⟨S32x30x17, .f32⟩ : BufTy).Contents (Elt F)) (a4 : (⟨S32x1x30x17, .f32⟩ : BufTy).Contents (Elt F)) (a5 : (⟨S32x17x128x128, .f32⟩ : BufTy).Contents (Elt F)) : (⟨S_, .f32⟩ : BufTy).Contents (Elt F) :=
  addf (tagBranch a0 a2 a3 a4) (mulf (constant S_ .f32 0x3F800000#32) (detBranch a0 a1 a5))

/-! ## The run -/

/-- @main's 68 operations, in order (a called function's operations stand in its call's place, spelt `TRef.…`). -/
abbrev ops : List (HloOp τ sig (Elt F)) :=
  [ unary main_arg0 main_v0 ((extractStridedSlice S32x4x17x128x128 ![0, 0, 17, 0, 0] · slices_S32x4x34x128x128_S32x4x17x128x128_0_0_17_0_0) : (⟨S32x4x34x128x128, .f32⟩ : BufTy).Contents (Elt F) → (⟨S32x4x17x128x128, .f32⟩ : BufTy).Contents (Elt F)),
    reshape main_v0 main_v1 rfl shapeCasts_S32x4x17x128x128_S32x4x1x278528,
    reshape main_arg2 main_v2 rfl shapeCasts_S32x30x17_S32x1x1x510,
    unary main_v2 main_v3 (broadcastInDim S32x4x1x510 ![0, 1, 2, 3] bcast_S32x1x1x510_S32x4x1x510_0_1_2_3 : (⟨S32x1x1x510, .i32⟩ : BufTy).Contents (Elt F) → (⟨S32x4x1x510, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S32x4x1x510, .i32⟩) main_call0_v0) (broadcastInDim S32x4x1x510 ![] bcast_S_S32x4x1x510),
    TRef.binary (TRef.of (T := ⟨S32x4x1x510, .i32⟩) main_v3) (TRef.of (T := ⟨S32x4x1x510, .i32⟩) main_call0_v0) (TRef.of (T := ⟨S32x4x1x510, .i1⟩) main_call0_v1) (cmpi .slt),
    TRef.nullary (TRef.of (T := ⟨S_, .i32⟩) main_call0_c_0) (constantI S_ 32 278528#32),
    TRef.unary (TRef.of (T := ⟨S_, .i32⟩) main_call0_c_0) (TRef.of (T := ⟨S32x4x1x510, .i32⟩) main_call0_v2) (broadcastInDim S32x4x1x510 ![] bcast_S_S32x4x1x510),
    TRef.binary (TRef.of (T := ⟨S32x4x1x510, .i32⟩) main_v3) (TRef.of (T := ⟨S32x4x1x510, .i32⟩) main_call0_v2) (TRef.of (T := ⟨S32x4x1x510, .i32⟩) main_call0_v3) addi,
    TRef.ternary (TRef.of (T := ⟨S32x4x1x510, .i1⟩) main_call0_v1) (TRef.of (T := ⟨S32x4x1x510, .i32⟩) main_call0_v3) (TRef.of (T := ⟨S32x4x1x510, .i32⟩) main_v3) (TRef.of (T := ⟨S32x4x1x510, .i32⟩) main_call0_v4) select,
    TRef.reshape (TRef.of (T := ⟨S32x4x1x510, .i32⟩) main_call0_v4) (TRef.of (T := ⟨S32x4x510x1, .i32⟩) main_call0_v5) rfl shapeCasts_S32x4x1x510_S32x4x510x1,
    TRef.nullary (TRef.of (T := ⟨S1, .i32⟩) main_call0_c_1) (constantI S1 32 278527#32),
    TRef.nullary (TRef.of (T := ⟨S_, .i32⟩) main_call0_c_2) (constantI S_ 32 0#32),
    TRef.unary (TRef.of (T := ⟨S_, .i32⟩) main_call0_c_2) (TRef.of (T := ⟨S32x4x510x1, .i32⟩) main_call0_v6) (broadcastInDim S32x4x510x1 ![] bcast_S_S32x4x510x1),
    TRef.binary (TRef.of (T := ⟨S32x4x510x1, .i32⟩) main_call0_v5) (TRef.of (T := ⟨S32x4x510x1, .i32⟩) main_call0_v6) (TRef.of (T := ⟨S32x4x510x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S32x4x510x1, .i32⟩) main_call0_v9) (broadcastInDim S32x4x510x1 ![0, 1, 2, 3] bcast_S1x1x1x1_S32x4x510x1_0_1_2_3),
    TRef.binary (TRef.of (T := ⟨S32x4x510x1, .i32⟩) main_call0_v5) (TRef.of (T := ⟨S32x4x510x1, .i32⟩) main_call0_v9) (TRef.of (T := ⟨S32x4x510x1, .i1⟩) main_call0_v10) (cmpi .sle),
    TRef.binary (TRef.of (T := ⟨S32x4x510x1, .i1⟩) main_call0_v7) (TRef.of (T := ⟨S32x4x510x1, .i1⟩) main_call0_v10) (TRef.of (T := ⟨S32x4x510x1, .i1⟩) main_call0_v11) andi,
    TRef.nullary (TRef.of (T := ⟨S_, .i1⟩) main_call0_c_3) (constantI S_ 1 1#1),
    TRef.binary (TRef.of (T := ⟨S32x4x510x1, .i1⟩) main_call0_v11) (TRef.of (T := ⟨S_, .i1⟩) main_call0_c_3) (TRef.of (T := ⟨S32x4x510, .i1⟩) main_call0_v12) (fun x v => Host.reduce IntOp.andi x v reducesTo_S32x4x510x1_S32x4x510_d3 h_S_),
    TRef.binary (TRef.of (T := ⟨S32x4x1x278528, .f32⟩) main_v1) (TRef.of (T := ⟨S32x4x510x1, .i32⟩) main_call0_v5) (TRef.of (T := ⟨S32x4x1x510, .f32⟩) main_call0_v13) (fun x i => Host.gather gather_S32x4x1x278528_S32x4x510x1_S32x4x1x510_2_3_01_01_3_3_1111 x i),
    TRef.unary (TRef.of (T := ⟨S32x4x510, .i1⟩) main_call0_v12) (TRef.of (T := ⟨S32x4x1x510, .i1⟩) main_call0_v14) (broadcastInDim S32x4x1x510 ![0, 1, 3] bcast_S32x4x510_S32x4x1x510_0_1_3),
    TRef.nullary (TRef.of (T := ⟨S_, .f32⟩) main_call0_cst) (constant S_ .f32 0x7FC00000#32),
    TRef.unary (TRef.of (T := ⟨S_, .f32⟩) main_call0_cst) (TRef.of (T := ⟨S32x4x1x510, .f32⟩) main_call0_v15) (broadcastInDim S32x4x1x510 ![] bcast_S_S32x4x1x510),
    TRef.ternary (TRef.of (T := ⟨S32x4x1x510, .i1⟩) main_call0_v14) (TRef.of (T := ⟨S32x4x1x510, .f32⟩) main_call0_v13) (TRef.of (T := ⟨S32x4x1x510, .f32⟩) main_call0_v15) (TRef.of (T := ⟨S32x4x1x510, .f32⟩) main_v4) select,
    reshape main_v4 main_v5 rfl shapeCasts_S32x4x1x510_S32x4x1x30x17,
    unary main_arg4 main_v6 (broadcastInDim S32x1x1x30x17 ![0, 2, 3, 4] bcast_S32x1x30x17_S32x1x1x30x17_0_2_3_4 : (⟨S32x1x30x17, .f32⟩ : BufTy).Contents (Elt F) → (⟨S32x1x1x30x17, .f32⟩ : BufTy).Contents (Elt F)),
    unary main_v6 main_v7 (broadcastInDim S32x4x1x30x17 ![0, 1, 2, 3, 4] bcast_S32x1x1x30x17_S32x4x1x30x17_0_1_2_3_4 : (⟨S32x1x1x30x17, .f32⟩ : BufTy).Contents (Elt F) → (⟨S32x4x1x30x17, .f32⟩ : BufTy).Contents (Elt F)),
    binary main_v5 main_v7 main_v8 (subf : (⟨S32x4x1x30x17, .f32⟩ : BufTy).Contents (Elt F) → (⟨S32x4x1x30x17, .f32⟩ : BufTy).Contents (Elt F) → (⟨S32x4x1x30x17, .f32⟩ : BufTy).Contents (Elt F)),
    binary main_v8 main_v8 main_v9 (mulf : (⟨S32x4x1x30x17, .f32⟩ : BufTy).Contents (Elt F) → (⟨S32x4x1x30x17, .f32⟩ : BufTy).Contents (Elt F) → (⟨S32x4x1x30x17, .f32⟩ : BufTy).Contents (Elt F)),
    unary main_arg3 main_v10 (broadcastInDim S32x1x1x30x17 ![0, 3, 4] bcast_S32x30x17_S32x1x1x30x17_0_3_4 : (⟨S32x30x17, .f32⟩ : BufTy).Contents (Elt F) → (⟨S32x1x1x30x17, .f32⟩ : BufTy).Contents (Elt F)),
    unary main_v10 main_v11 (broadcastInDim S32x4x1x30x17 ![0, 1, 2, 3, 4] bcast_S32x1x1x30x17_S32x4x1x30x17_0_1_2_3_4 : (⟨S32x1x1x30x17, .f32⟩ : BufTy).Contents (Elt F) → (⟨S32x4x1x30x17, .f32⟩ : BufTy).Contents (Elt F)),
    binary main_v9 main_v11 main_v12 (mulf : (⟨S32x4x1x30x17, .f32⟩ : BufTy).Contents (Elt F) → (⟨S32x4x1x30x17, .f32⟩ : BufTy).Contents (Elt F) → (⟨S32x4x1x30x17, .f32⟩ : BufTy).Contents (Elt F)),
    nullary main_cst (constant S_ .f32 0x00000000#32),
    binary main_v12 main_cst main_v13 ((fun x v => Host.reduceAdd x v reducesTo_S32x4x1x30x17_S32x4x1_d3_4 h_S_) : (⟨S32x4x1x30x17, .f32⟩ : BufTy).Contents (Elt F) → (⟨S_, .f32⟩ : BufTy).Contents (Elt F) → (⟨S32x4x1, .f32⟩ : BufTy).Contents (Elt F)),
    nullary main_cst_0 (constant S_ .f32 0x00000000#32),
    binary main_v13 main_cst_0 main_v14 ((fun x v => Host.reduceAdd x v reducesTo_S32x4x1_S32x4_d2 h_S_) : (⟨S32x4x1, .f32⟩ : BufTy).Contents (Elt F) → (⟨S_, .f32⟩ : BufTy).Contents (Elt F) → (⟨S32x4, .f32⟩ : BufTy).Contents (Elt F)),
    nullary main_cst_1 (constant S_ .f32 0x3F800000#32),
    unary main_cst_1 main_v15 (broadcastInDim S32x4 ![] bcast_S_S32x4 : (⟨S_, .f32⟩ : BufTy).Contents (Elt F) → (⟨S32x4, .f32⟩ : BufTy).Contents (Elt F)),
    binary main_v14 main_v15 main_v16 (Host.divf : (⟨S32x4, .f32⟩ : BufTy).Contents (Elt F) → (⟨S32x4, .f32⟩ : BufTy).Contents (Elt F) → (⟨S32x4, .f32⟩ : BufTy).Contents (Elt F)),
    unary main_arg0 main_v17 ((extractStridedSlice S32x4x17x128x128 ![0, 0, 0, 0, 0] · slices_S32x4x34x128x128_S32x4x17x128x128_0_0_0_0_0) : (⟨S32x4x34x128x128, .f32⟩ : BufTy).Contents (Elt F) → (⟨S32x4x17x128x128, .f32⟩ : BufTy).Contents (Elt F)),
    unary main_arg5 main_v18 (broadcastInDim S32x1x17x128x128 ![0, 2, 3, 4] bcast_S32x17x128x128_S32x1x17x128x128_0_2_3_4 : (⟨S32x17x128x128, .f32⟩ : BufTy).Contents (Elt F) → (⟨S32x1x17x128x128, .f32⟩ : BufTy).Contents (Elt F)),
    unary main_v18 main_v19 (broadcastInDim S32x4x17x128x128 ![0, 1, 2, 3, 4] bcast_S32x1x17x128x128_S32x4x17x128x128_0_1_2_3_4 : (⟨S32x1x17x128x128, .f32⟩ : BufTy).Contents (Elt F) → (⟨S32x4x17x128x128, .f32⟩ : BufTy).Contents (Elt F)),
    binary main_v17 main_v19 main_v20 (subf : (⟨S32x4x17x128x128, .f32⟩ : BufTy).Contents (Elt F) → (⟨S32x4x17x128x128, .f32⟩ : BufTy).Contents (Elt F) → (⟨S32x4x17x128x128, .f32⟩ : BufTy).Contents (Elt F)),
    binary main_v20 main_v20 main_v21 (mulf : (⟨S32x4x17x128x128, .f32⟩ : BufTy).Contents (Elt F) → (⟨S32x4x17x128x128, .f32⟩ : BufTy).Contents (Elt F) → (⟨S32x4x17x128x128, .f32⟩ : BufTy).Contents (Elt F)),
    unary main_arg1 main_v22 (broadcastInDim S32x1x1x128x128 ![0, 3, 4] bcast_S32x128x128_S32x1x1x128x128_0_3_4 : (⟨S32x128x128, .f32⟩ : BufTy).Contents (Elt F) → (⟨S32x1x1x128x128, .f32⟩ : BufTy).Contents (Elt F)),
    unary main_v22 main_v23 (broadcastInDim S32x4x17x128x128 ![0, 1, 2, 3, 4] bcast_S32x1x1x128x128_S32x4x17x128x128_0_1_2_3_4 : (⟨S32x1x1x128x128, .f32⟩ : BufTy).Contents (Elt F) → (⟨S32x4x17x128x128, .f32⟩ : BufTy).Contents (Elt F)),
    binary main_v21 main_v23 main_v24 (mulf : (⟨S32x4x17x128x128, .f32⟩ : BufTy).Contents (Elt F) → (⟨S32x4x17x128x128, .f32⟩ : BufTy).Contents (Elt F) → (⟨S32x4x17x128x128, .f32⟩ : BufTy).Contents (Elt F)),
    nullary main_cst_2 (constant S_ .f32 0x00000000#32),
    binary main_v24 main_cst_2 main_v25 ((fun x v => Host.reduceAdd x v reducesTo_S32x4x17x128x128_S32x4_d2_3_4 h_S_) : (⟨S32x4x17x128x128, .f32⟩ : BufTy).Contents (Elt F) → (⟨S_, .f32⟩ : BufTy).Contents (Elt F) → (⟨S32x4, .f32⟩ : BufTy).Contents (Elt F)),
    nullary main_cst_3 (constant S_ .f32 0x48880000#32),
    unary main_cst_3 main_v26 (broadcastInDim S32x4 ![] bcast_S_S32x4 : (⟨S_, .f32⟩ : BufTy).Contents (Elt F) → (⟨S32x4, .f32⟩ : BufTy).Contents (Elt F)),
    binary main_v25 main_v26 main_v27 (Host.divf : (⟨S32x4, .f32⟩ : BufTy).Contents (Elt F) → (⟨S32x4, .f32⟩ : BufTy).Contents (Elt F) → (⟨S32x4, .f32⟩ : BufTy).Contents (Elt F)),
    nullary main_cst_4 (constant S_ .f32 0x00000000#32),
    binary main_v16 main_cst_4 main_v28 ((fun x v => Host.reduceAdd x v reducesTo_S32x4_S_d0_1 h_S_) : (⟨S32x4, .f32⟩ : BufTy).Contents (Elt F) → (⟨S_, .f32⟩ : BufTy).Contents (Elt F) → (⟨S_, .f32⟩ : BufTy).Contents (Elt F)),
    nullary main_cst_5 (constant S_ .f32 0x43000000#32),
    binary main_v28 main_cst_5 main_v29 (Host.divf : (⟨S_, .f32⟩ : BufTy).Contents (Elt F) → (⟨S_, .f32⟩ : BufTy).Contents (Elt F) → (⟨S_, .f32⟩ : BufTy).Contents (Elt F)),
    nullary main_cst_6 (constant S_ .f32 0x3A83126F#32),
    binary main_cst_6 main_v29 main_v30 (mulf : (⟨S_, .f32⟩ : BufTy).Contents (Elt F) → (⟨S_, .f32⟩ : BufTy).Contents (Elt F) → (⟨S_, .f32⟩ : BufTy).Contents (Elt F)),
    nullary main_cst_7 (constant S_ .f32 0x00000000#32),
    binary main_v27 main_cst_7 main_v31 ((fun x v => Host.reduceAdd x v reducesTo_S32x4_S_d0_1 h_S_) : (⟨S32x4, .f32⟩ : BufTy).Contents (Elt F) → (⟨S_, .f32⟩ : BufTy).Contents (Elt F) → (⟨S_, .f32⟩ : BufTy).Contents (Elt F)),
    nullary main_cst_8 (constant S_ .f32 0x43000000#32),
    binary main_v31 main_cst_8 main_v32 (Host.divf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    binary main_cst_9 main_v32 main_v33 (mulf : (⟨S_, .f32⟩ : BufTy).Contents (Elt F) → (⟨S_, .f32⟩ : BufTy).Contents (Elt F) → (⟨S_, .f32⟩ : BufTy).Contents (Elt F)),
    binary main_v30 main_v33 main_v34 (addf : (⟨S_, .f32⟩ : BufTy).Contents (Elt F) → (⟨S_, .f32⟩ : BufTy).Contents (Elt F) → (⟨S_, .f32⟩ : BufTy).Contents (Elt F)) ]

set_option maxRecDepth 200000 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 200000 in
theorem ops_sub : (ops : List (HloOp τ sig (Elt F))).Forall fun op => op.bufs ⊆ tcRefs τ sig :=
  ⟨unary_bufs_sub .., reshape_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., binary_bufs_sub .., binary_bufs_sub .., unary_bufs_sub .., unary_bufs_sub .., binary_bufs_sub .., nullary_bufs_sub .., binary_bufs_sub .., nullary_bufs_sub .., binary_bufs_sub .., nullary_bufs_sub .., unary_bufs_sub .., binary_bufs_sub .., unary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub ..⟩

set_option maxRecDepth 200000 in
set_option maxHeartbeats 27200000 in
/-- On every device, from any memory with zero counters: every weakly fair execution of the reference terminates with
    its result at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v34).trans (by after_results_simp <;> rfl <;> (unfold result tagBranch tagDiff keyIdx detBranch sqErr detDiff; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.KernelValue.lean ====
/-
  The kernel program's run, read back as a value.

  The region leaves its one-entry output array holding the sum of all images' sums of weighted squared errors
  divided by the number of entries: only the last image writes the output back, and its block is the whole
  array. After the region the program computes, on the host, exactly the reference's tag term of the argument
  arrays (the same operations in the same order), multiplies the region's output by 1.0, and adds the two. So
  the kernel program's result is `tagBranch + 1.0 · (the region's output)`.
-/
import proofs.«152930_j83880711290948_2_alg».proof.Proof.Accum
import proofs.«152930_j83880711290948_2_alg».proof.Proof.RefRun
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-! ## The region's output array -/

/-- The heatmap term: the sum over all images of their sums of weighted squared errors, over the entry count. -/
def detTerm (c : Dev nD) : EReal := Ideal.div (∑ b : Fin 32, Accum.sums m c b) ((35651584 : ℝ) : EReal)

/-- The output array's contents after the region: its one entry holds the heatmap term. -/
def outCell (c : Dev nD) : Buf (Elt Ideal) ((c.tc : Thread nD τ).loc main_v0) := fun _ => detTerm m c

/-- The output window's block never moves and is one entry wide. -/
theorem idx3 : ∀ t : Fin cfg0.N, win0_3.index t (0 : Fin 2) * win0_3.size (0 : Fin 2) = 0
    ∧ win0_3.index t (1 : Fin 2) * win0_3.size (1 : Fin 2) = 0
    ∧ win0_3.xsize (grid0.coords t) (0 : Fin 2) = 1 ∧ win0_3.xsize (grid0.coords t) (1 : Fin 2) = 1 :=
  (by decide +kernel : ∀ t : Fin grid0.N, _)

/-- The one write-back, after the last image, writes the heatmap term. -/
theorem flushed_eq (c : Dev nD) (t : Fin cfg0.N) (hf : (cfg0.win 3).flush t = true) :
    (dats m 0 c).flushed 3 t = ((cfg0.win 3).blk t).view.read (Elt Ideal) (outCell m c) := by
  have hN : cfg0.N = 32 := N_0
  have h31 : t.val = 31 := by have := (flush0_3 t).mp hf; have := t.isLt; omega
  obtain ⟨n, hn⟩ := t
  dsimp only at h31
  subst h31
  funext x
  rw [View.read_apply]
  show (dats m 0 c).after 3 ⟨31, hn⟩ _ = detTerm m c
  rw [after0_3]
  exact Accum.out_eq m c hn _

/-- So the output array ends holding it. -/
theorem final (c : Dev nD) : (dats m 0 c).arrAt 3 cfg0.N = outCell m c :=
  (dats m 0 c).arrAt_eq_of_cover 3 (outCell m c) (flushed_eq m c) fun i => by
    have h31 : 31 < cfg0.N := by rw [show cfg0.N = 32 from N_0]; decide
    refine ⟨⟨31, h31⟩, (flush0_3 _).mpr rfl, ?_⟩
    have hi := idx3 ⟨31, h31⟩
    show i ∈ ((View.whole main_v0).slice (win0_3.rect ⟨31, h31⟩)).set
    rw [View.set_slice_whole, Rect.mem_set_unit]
    intro a
    have h0 : (i 0 : Nat) < 1 := (i 0).isLt
    have h1 : (i 1 : Nat) < 1 := (i 1).isLt
    match a with
    | ⟨0, _⟩ =>
      show win0_3.index ⟨31, _⟩ 0 * win0_3.size 0 ≤ (i 0 : Nat)
        ∧ (i 0 : Nat) < win0_3.index ⟨31, _⟩ 0 * win0_3.size 0 + win0_3.xsize (grid0.coords ⟨31, _⟩) 0
      rw [hi.1, hi.2.2.1]; omega
    | ⟨1, _⟩ =>
      show win0_3.index ⟨31, _⟩ 1 * win0_3.size 1 ≤ (i 1 : Nat)
        ∧ (i 1 : Nat) < win0_3.index ⟨31, _⟩ 1 * win0_3.size 1 + win0_3.xsize (grid0.coords ⟨31, _⟩) 1
      rw [hi.2.1, hi.2.2.2]; omega

/-! ## The host operations after the region -/

/-- The kernel program's result as a function of the launch memory: the reference's tag term of the argument arrays
    plus 1.0 times the region's output (its one entry read as a scalar). -/
def result (c : Dev nD) : Buf (Elt Ideal) ((c.tc : Thread nD τ).loc main_v23) :=
  show FVec Ideal S_ .f32 from
  addf (F := Ideal) (Cert.ReferenceIdeal.RefValue.tagBranch (F := Ideal) (m ((c.tc : Thread nD τ).loc main_arg0)) (m ((c.tc : Thread nD τ).loc main_arg2))
      (m ((c.tc : Thread nD τ).loc main_arg3)) (m ((c.tc : Thread nD τ).loc main_arg4)))
    (mulf (F := Ideal) (constant (F := Ideal) S_ .f32 0x3F800000#32)
      (shapeCast S_ (show Vec Ideal S1x1 .f32 from outCell m c) shapeCasts_S1x1_S_))

set_option maxRecDepth 200000 in
set_option maxHeartbeats 8000000 in
/-- What the fifty-two host operations after the region leave in the result buffer. -/
theorem tail_eq (c : Dev nD) :
    Pipeline.afterTail₀ cfgs (dats m) 0 (V0 m) [hostOps1, hostOps1_1, hostOps1_2] c main_v23 = result m c := by
  have w0 : Pipeline.withArrays spec0 c (V0 m c) (fun w => (dats m 0 c).arrAt w cfg0.N) (Proc.devRef .tc main_arg0)
      = m ((c.tc : Thread nD τ).loc main_arg0) :=
    (Pipeline.withArrays_arr spec0 launch0.win.arr_inj c _ _ 0).trans
      (((dats m 0 c).arrAt_in 0 rfl _).trans ((A_eq m c 0).trans (V_main_arg0 m c)))
  have wv : Pipeline.withArrays spec0 c (V0 m c) (fun w => (dats m 0 c).arrAt w cfg0.N) (Proc.devRef .tc main_v0)
      = outCell m c :=
    (Pipeline.withArrays_arr spec0 launch0.win.arr_inj c _ _ 3).trans (final m c)
  have w2 : Pipeline.withArrays spec0 c (V0 m c) (fun w => (dats m 0 c).arrAt w cfg0.N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have w3 : Pipeline.withArrays spec0 c (V0 m c) (fun w => (dats m 0 c).arrAt w cfg0.N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  have w4 : Pipeline.withArrays spec0 c (V0 m c) (fun w => (dats m 0 c).arrAt w cfg0.N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  generalize Pipeline.withArrays spec0 c (V0 m c) (fun w => (dats m 0 c).arrAt w cfg0.N) = W at w0 wv w2 w3 w4 ⊢
  simp only [hostOps1, hostOps1_1, hostOps1_2, List.flatten_cons, List.flatten_nil, List.append_nil, List.cons_append,
    List.nil_append]
  after_results_simp
  rw [w0, wv, w2, w3, w4]
  unfold result Cert.ReferenceIdeal.RefValue.tagBranch Cert.ReferenceIdeal.RefValue.tagDiff Cert.ReferenceIdeal.RefValue.keyIdx
  rfl

/-! ## The run -/

/-- From any launch memory every weakly fair execution of the kernel program terminates with its result at
    `result` and the six argument arrays unchanged: the generated frame run, its post read at the result
    buffer (the host tail, `tail_eq`) and at the arguments. -/
theorem run : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v23 (Pipeline.mem_restRefs_of main_v23 (by decide) (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans ((A_eq m c 1).trans (V_main_arg5 m c)))⟩)
    (run_main m ρ)

end Cert.KernelIdeal.KValue

end
-- ==== Proof.LibSumIdx.lean ====
/-
  Sums over the index set of a rank-4 or rank-5 shape as iterated sums over the coordinates.

  An index of the shape [n0, n1, n2, n3] is the tuple of its four coordinates, so the index set is the product
  of the four coordinate ranges and a sum over it, in any commutative monoid, is the fourfold iterated sum; the
  same at rank 5. (The index library has this at rank 2, `ValueIdx.sum_idx2`; these are its next cases, stated
  over `ValueIdx.ix4` / `ix5` so that a coordinate of the summand's index computes by `rfl`.)
-/
import Idealize.ShloMosaic.Lib.ValueIdx

noncomputable section

open scoped BigOperators

namespace Cert.LibSumIdx

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the fivefold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

end Cert.LibSumIdx

end
-- ==== Proof.RefDet.lean ====
/-
  The reference's heatmap term, read as a sum.

  The reference slices the first seventeen prediction channels, subtracts the heatmaps (repeated over the four
  stacks), squares, multiplies by the mask (repeated over the stacks and the parts), sums each image-stack's
  17 · 128 · 128 entries and divides by 278528, then sums the 128 quotients and divides by 128. Read over the
  extended reals this is the two-stage mean of the weighted squared errors, which is the sum of all of them
  divided by 35651584 = 278528 · 128 — a positive real divisor moves across a finite sum whatever the terms are.
-/
import proofs.«152930_j83880711290948_2_alg».proof.Proof.RefRun
import proofs.«152930_j83880711290948_2_alg».proof.Proof.Spec
import proofs.«152930_j83880711290948_2_alg».proof.Proof.ScaledSum
import proofs.«152930_j83880711290948_2_alg».proof.Proof.Consts
import proofs.«152930_j83880711290948_2_alg».proof.Proof.LibSumIdx
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.ReferenceIdeal.RefDet

open Cert.ReferenceIdeal Cert.ReferenceIdeal.Gen Cert.ReferenceIdeal.RefValue

/-! ## The layout operations, each read at coordinates -/

section Layout
variable {α : Type}

/-- The slice of the first seventeen channels: (b, s, p, y, x) reads channel p of the thirty-four. -/
theorem pred_slice (a0 : S32x4x34x128x128.Idx → α) (h : S32x4x34x128x128.Slices ![0, 0, 0, 0, 0] S32x4x17x128x128)
    (b : Fin 32) (s : Fin 4) (p : Fin 17) (y x : Fin 128) :
    extractStridedSlice S32x4x17x128x128 ![0, 0, 0, 0, 0] a0 h (ix5 b s p y x) = a0 (ix5 b s (Cert.Spec.chan p) y x) := by
  refine extractStridedSlice_apply _ a0 h _ _ fun a => ?_
  match a with
  | ⟨0, _⟩ => show b.val = 0 + b.val; omega
  | ⟨1, _⟩ => show s.val = 0 + s.val; omega
  | ⟨2, _⟩ => show p.val = 0 + p.val; omega
  | ⟨3, _⟩ => show y.val = 0 + y.val; omega
  | ⟨4, _⟩ => show x.val = 0 + x.val; omega

/-- The heatmaps given a unit stack axis: (b, 0, p, y, x) reads (b, p, y, x). -/
theorem heat_unit (a5 : S32x17x128x128.Idx → α) (h : S32x17x128x128.BroadcastsInDim S32x1x17x128x128 ![0, 2, 3, 4])
    (b : Fin 32) (p : Fin 17) (y x : Fin 128) :
    broadcastInDim S32x1x17x128x128 ![0, 2, 3, 4] h a5 (ix5 b (0 : Fin 1) p y x) = a5 (ix4 b p y x) := by
  refine broadcastInDim_apply _ h a5 _ _ fun a => ?_
  match a with
  | ⟨0, _⟩ => rfl
  | ⟨1, _⟩ => rfl
  | ⟨2, _⟩ => rfl
  | ⟨3, _⟩ => rfl

/-- … and repeated over the stacks: (b, s, p, y, x) reads (b, 0, p, y, x). -/
theorem heat_rep (v : S32x1x17x128x128.Idx → α) (h : S32x1x17x128x128.BroadcastsInDim S32x4x17x128x128 ![0, 1, 2, 3, 4])
    (b : Fin 32) (s : Fin 4) (p : Fin 17) (y x : Fin 128) :
    broadcastInDim S32x4x17x128x128 ![0, 1, 2, 3, 4] h v (ix5 b s p y x) = v (ix5 b (0 : Fin 1) p y x) := by
  refine broadcastInDim_apply _ h v _ _ fun a => ?_
  match a with
  | ⟨0, _⟩ => rfl
  | ⟨1, _⟩ => rfl
  | ⟨2, _⟩ => rfl
  | ⟨3, _⟩ => rfl
  | ⟨4, _⟩ => rfl

/-- The mask given unit stack and part axes: (b, 0, 0, y, x) reads (b, y, x). -/
theorem mask_unit (a1 : S32x128x128.Idx → α) (h : S32x128x128.BroadcastsInDim S32x1x1x128x128 ![0, 3, 4])
    (b : Fin 32) (y x : Fin 128) :
    broadcastInDim S32x1x1x128x128 ![0, 3, 4] h a1 (ix5 b (0 : Fin 1) (0 : Fin 1) y x) = a1 (ix3 b y x) := by
  refine broadcastInDim_apply _ h a1 _ _ fun a => ?_
  match a with
  | ⟨0, _⟩ => rfl
  | ⟨1, _⟩ => rfl
  | ⟨2, _⟩ => rfl

/-- … and repeated over the stacks and the parts: (b, s, p, y, x) reads (b, 0, 0, y, x). -/
theorem mask_rep (v : S32x1x1x128x128.Idx → α) (h : S32x1x1x128x128.BroadcastsInDim S32x4x17x128x128 ![0, 1, 2, 3, 4])
    (b : Fin 32) (s : Fin 4) (p : Fin 17) (y x : Fin 128) :
    broadcastInDim S32x4x17x128x128 ![0, 1, 2, 3, 4] h v (ix5 b s p y x) = v (ix5 b (0 : Fin 1) (0 : Fin 1) y x) := by
  refine broadcastInDim_apply _ h v _ _ fun a => ?_
  match a with
  | ⟨0, _⟩ => rfl
  | ⟨1, _⟩ => rfl
  | ⟨2, _⟩ => rfl
  | ⟨3, _⟩ => rfl
  | ⟨4, _⟩ => rfl

end Layout

/-! ## The weighted squared error and the two-stage mean -/

/-- The reference's weighted squared error at (b, s, p, y, x) is the specification's. -/
theorem sqErr_apply (a0 : (⟨S32x4x34x128x128, .f32⟩ : BufTy).Contents (Elt Ideal)) (a1 : (⟨S32x128x128, .f32⟩ : BufTy).Contents (Elt Ideal))
    (a5 : (⟨S32x17x128x128, .f32⟩ : BufTy).Contents (Elt Ideal)) (b : Fin 32) (s : Fin 4) (p : Fin 17) (y x : Fin 128) :
    sqErr (F := Ideal) a0 a1 a5 (ix5 b s p y x) = Cert.Spec.wsq a0 a1 a5 b s p y x := by
  unfold sqErr detDiff Cert.Spec.wsq
  rw [mulf_apply, mulf_apply, subf_apply, pred_slice, heat_rep, heat_unit, mask_rep, mask_unit]

/-- The sum of the weighted squared errors over every entry is the sum over the images of the images' sums. -/
theorem sum_sqErr (a0 : (⟨S32x4x34x128x128, .f32⟩ : BufTy).Contents (Elt Ideal)) (a1 : (⟨S32x128x128, .f32⟩ : BufTy).Contents (Elt Ideal))
    (a5 : (⟨S32x17x128x128, .f32⟩ : BufTy).Contents (Elt Ideal)) :
    ∑ i : S32x4x17x128x128.Idx, sqErr (F := Ideal) a0 a1 a5 i = ∑ b : Fin 32, Cert.Spec.imgSum a0 a1 a5 b := by
  rw [Cert.LibSumIdx.sum_idx5]
  unfold Cert.Spec.imgSum
  refine Finset.sum_congr rfl fun b _ => Finset.sum_congr rfl fun s _ => Finset.sum_congr rfl fun p _ =>
    Finset.sum_congr rfl fun y _ => Finset.sum_congr rfl fun x _ => ?_
  exact sqErr_apply a0 a1 a5 b s p y x

/-- The reference's heatmap term is the sum of all weighted squared errors divided by the number of entries. -/
theorem detBranch_apply (a0 : (⟨S32x4x34x128x128, .f32⟩ : BufTy).Contents (Elt Ideal)) (a1 : (⟨S32x128x128, .f32⟩ : BufTy).Contents (Elt Ideal))
    (a5 : (⟨S32x17x128x128, .f32⟩ : BufTy).Contents (Elt Ideal)) (i : S_.Idx) :
    detBranch (F := Ideal) a0 a1 a5 i
      = Ideal.div (∑ b : Fin 32, Cert.Spec.imgSum a0 a1 a5 b) ((35651584 : ℝ) : EReal) := by
  rw [← sum_sqErr]
  unfold detBranch
  generalize sqErr (F := Ideal) a0 a1 a5 = sq
  simp only [Host.divf, Host.reduceAdd, Ideal.hostReduceAdd_def, Ideal.hostDivf_def]
  rw [Ideal.hostReduceAdd_total reducesTo_S32x4_S_d0_1 (fun b => b.elim0)]
  have inner : ∀ j : S32x4.Idx,
      Host.divf (F := Ideal) (Ideal.hostReduceAdd reducesTo_S32x4x17x128x128_S32x4_d2_3_4 sq (constant (F := Ideal) S_ .f32 0x00000000#32 (Shape.Idx.first h_S_)))
          (broadcastInDim S32x4 ![] bcast_S_S32x4 (constant (F := Ideal) S_ .f32 0x48880000#32)) j
        = Ideal.div (0 + ∑ k ∈ Finset.univ.filter (fun k => reducesTo_S32x4x17x128x128_S32x4_d2_3_4.drop k = j), sq k)
            ((278528 : ℝ) : EReal) := by
    intro j
    show Ideal.div (Ideal.ofBits .f32 0x00000000#32 + ∑ k ∈ Finset.univ.filter (fun k => reducesTo_S32x4x17x128x128_S32x4_d2_3_4.drop k = j), sq k)
        (Ideal.ofBits .f32 0x48880000#32) = _
    rw [Cert.Consts.ofBits_zero, Cert.Consts.ofBits_278528]
  simp only [inner]
  show Ideal.div (Ideal.ofBits .f32 0x00000000#32 + ∑ j : S32x4.Idx, _) (Ideal.ofBits .f32 0x43000000#32) = _
  rw [Cert.Consts.ofBits_zero, Cert.Consts.ofBits_128,
    Cert.ScaledSum.div_sum_div _ (by norm_num : (0 : ℝ) < 278528) (by norm_num : (0 : ℝ) < 128)
      (by norm_num : (278528 : ℝ) * 128 = 35651584)]
  congr 1
  exact Finset.sum_fiberwise Finset.univ _ _

end Cert.ReferenceIdeal.RefDet

end
-- ==== Proof.lean ====
/-
  The five conjuncts of this certificate's claim.

  The kernel program is a supervised-tags loss: a Pallas kernel streams the thirty-two images one at a time and
  accumulates, in a one-entry scratch cell, the sum of the weighted squared errors
      (pred − heat)² · mask
  over the first seventeen prediction channels, finishing with ONE division by the number of entries
  35651584 = 32 · 4 · 17 · 128 · 128; the host then adds 0.001 times the tag term, which it computes from the other
  seventeen channels exactly as the reference does. The reference takes the same heatmap error as a mean in two
  stages: each of the 128 image-stacks' sums divided by 278528, the quotients summed and divided by 128.

  Over the extended reals the two agree for EVERY input, finite or not: the tag terms are the same composition of
  the same operations on the same arrays, and a positive real divisor moves across a finite sum of extended reals
  (c · ⊤ = ⊤ and c · ⊥ = ⊥ stay where they are), so the two-stage mean is the plain sum over 278528 · 128. The
  precondition (finite inputs) is therefore not used by the value claim.

  The three frames are the generated frame runs (the reference's is its run with the result dropped); the
  idealization rewrote no operation, so `preserves` is `True`.
-/
import proofs.«152930_j83880711290948_2_alg».proof.Defs
import proofs.«152930_j83880711290948_2_alg».proof.Proof.Gen.Kernel
import proofs.«152930_j83880711290948_2_alg».proof.Proof.Gen.Kernel.Skeleton
import proofs.«152930_j83880711290948_2_alg».proof.Proof.Gen.Kernel.Launch
import proofs.«152930_j83880711290948_2_alg».proof.Proof.Gen.Kernel.Points
import proofs.«152930_j83880711290948_2_alg».proof.Proof.Gen.Kernel.Frame
import proofs.«152930_j83880711290948_2_alg».proof.Proof.Gen.KernelIdeal
import proofs.«152930_j83880711290948_2_alg».proof.Proof.Gen.KernelIdeal.Skeleton
import proofs.«152930_j83880711290948_2_alg».proof.Proof.Gen.KernelIdeal.Launch
import proofs.«152930_j83880711290948_2_alg».proof.Proof.Gen.KernelIdeal.Points
import proofs.«152930_j83880711290948_2_alg».proof.Proof.Gen.KernelIdeal.Frame
import proofs.«152930_j83880711290948_2_alg».proof.Proof.Gen.ReferenceIdeal
import proofs.«152930_j83880711290948_2_alg».proof.Proof.Gen.Pre_finite_inputs
import proofs.«152930_j83880711290948_2_alg».proof.Proof.KernelValue
import proofs.«152930_j83880711290948_2_alg».proof.Proof.RefDet
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs' results are one function of the launch memory: equal tag terms, and the kernel's single
    quotient equal to the reference's two-stage mean. -/
theorem result_eq (m : (ℓ : Loc Cert.KernelIdeal.nD Cert.KernelIdeal.τ Cert.KernelIdeal.sig) → Buf (Elt Ideal) ℓ)
    (c : Dev Cert.KernelIdeal.nD) :
    Cert.ReferenceIdeal.RefValue.result (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.KValue.result m c := by
  unfold Cert.ReferenceIdeal.RefValue.result Cert.KernelIdeal.KValue.result
  refine congrArg (addf _) ?_
  funext i
  show (Ideal.ofBits .f32 0x3F800000#32) * _ = (Ideal.ofBits .f32 0x3F800000#32) * _
  refine congrArg (_ * ·) ?_
  rw [Cert.ReferenceIdeal.RefDet.detBranch_apply]
  rfl

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- Both idealized programs end at the same extended real on every device, from memories agreeing on the arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
